-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S2048x2048 : Shape := ⟨2, ![2048, 2048]⟩
abbrev S2048x256 : Shape := ⟨2, ![2048, 256]⟩
abbrev S2000x256 : Shape := ⟨2, ![2000, 256]⟩
abbrev S2048x1808 : Shape := ⟨2, ![2048, 1808]⟩
abbrev S1808x256 : Shape := ⟨2, ![1808, 256]⟩

abbrev nBuf : Space → Nat
  | .hbm => 6
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S2048x2048, .f32⟩
  | .local _ .vmem, ⟨1, _⟩ => ⟨S2048x2048, .f32⟩
  | .local _ .vmem, ⟨2, _⟩ => ⟨S10000x256, .f32⟩
  | .local _ .vmem, ⟨3, _⟩ => ⟨S256x256, .f32⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![5, 5], ![false, false]⟩

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let c4_i32 : BitVec 32 := 4#32
  let v9 : BitVec 1 := Scalar.cmpi .slt arg1 c4_i32
  let v10 : BitVec 1 := Scalar.andi v8 v9
  let v11 : BitVec 32 := Scalar.extui v10
  let c0_i32_5 : BitVec 32 := 0#32
  let v12 : BitVec 1 := Scalar.cmpi .ne v11 c0_i32_5
  v12

def k0_off1 (i : grid0.Coords) : Fin 2 → Nat :=
  let arg1 : BitVec 32 := BitVec.ofNat 32 (i 1).val
  let c2048_i32 : BitVec 32 := 2048#32
  let v18 : BitVec 32 := Scalar.muli arg1 c2048_i32
  let v20 : Index := Scalar.indexCast v18
  let c0_11 : Index := 0#32
  ![v20.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond4 (i : grid0.Coords) : BitVec 1 :=
  let arg1 : BitVec 32 := BitVec.ofNat 32 (i 1).val
  let c4_i32_6 : BitVec 32 := 4#32
  let v13 : BitVec 1 := Scalar.cmpi .eq arg1 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S256_S1x256 : S256.ShapeCasts S1x256
  inb_S10000x256_S2000x256_0_0 : ∀ a, (![0, 0] : Fin 2 → Nat) a + S2000x256.size a ≤ S10000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S2000x256_S2000x256 : S2000x256.ShapeCasts S2000x256
  packedbf16_S10000x256_S2000x256_0_0 : (Rect.unit (s := S10000x256) ![0, 0] S2000x256.size inb_S10000x256_S2000x256_0_0).PackedRows (EltTy.packing .bf16)
  inb_S10000x256_S2000x256_2000_0 : ∀ a, (![2000, 0] : Fin 2 → Nat) a + S2000x256.size a ≤ S10000x256.size a
  packedbf16_S10000x256_S2000x256_2000_0 : (Rect.unit (s := S10000x256) ![2000, 0] S2000x256.size inb_S10000x256_S2000x256_2000_0).PackedRows (EltTy.packing .bf16)
  inb_S10000x256_S2000x256_4000_0 : ∀ a, (![4000, 0] : Fin 2 → Nat) a + S2000x256.size a ≤ S10000x256.size a
  packedbf16_S10000x256_S2000x256_4000_0 : (Rect.unit (s := S10000x256) ![4000, 0] S2000x256.size inb_S10000x256_S2000x256_4000_0).PackedRows (EltTy.packing .bf16)
  inb_S10000x256_S2000x256_6000_0 : ∀ a, (![6000, 0] : Fin 2 → Nat) a + S2000x256.size a ≤ S10000x256.size a
  packedbf16_S10000x256_S2000x256_6000_0 : (Rect.unit (s := S10000x256) ![6000, 0] S2000x256.size inb_S10000x256_S2000x256_6000_0).PackedRows (EltTy.packing .bf16)
  inb_S10000x256_S2000x256_8000_0 : ∀ a, (![8000, 0] : Fin 2 → Nat) a + S2000x256.size a ≤ S10000x256.size a
  packedbf16_S10000x256_S2000x256_8000_0 : (Rect.unit (s := S10000x256) ![8000, 0] S2000x256.size inb_S10000x256_S2000x256_8000_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S10000x256_S2048x256_0_0 : ∀ a, (![0, 0] : Fin 2 → Nat) a + S2048x256.size a ≤ S10000x256.size a
  h_S2048x256 : 0 < S2048x256.numel
  inb_S2048x256_S2048x256_0_0 : ∀ a, (![0, 0] : Fin 2 → Nat) a + S2048x256.size a ≤ S2048x256.size a
  shapeCasts_S2048x256_S2048x256 : S2048x256.ShapeCasts S2048x256
  inb_S2048x2048_S2048x1808_0_0 : ∀ a, (![0, 0] : Fin 2 → Nat) a + S2048x1808.size a ≤ S2048x2048.size a
  h_S2048x1808 : 0 < S2048x1808.numel
  inb_S10000x256_S1808x256_8192_0 : ∀ a, (![8192, 0] : Fin 2 → Nat) a + S1808x256.size a ≤ S10000x256.size a
  h_S1808x256 : 0 < S1808x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2000x256_S256x256_S2000x256_1_0_0_1_n_n_wf : DotDims.WF S2000x256 S256x256 S2000x256 [1] [0] [0] [1] [] []
  dot_S2048x2048_S2048x256_S2048x256_1_0_0_1_n_n_wf : DotDims.WF S2048x2048 S2048x256 S2048x256 [1] [0] [0] [1] [] []
  dot_S2048x1808_S1808x256_S2048x256_1_0_0_1_n_n_wf : DotDims.WF S2048x1808 S1808x256 S2048x256 [1] [0] [0] [1] [] []
  hrank0 : 0 < grid0.rank
  k0_off1_inb : ∀ i : grid0.Coords, ∀ (k0_h3 : k0_cond3 i = 1#1), ∀ a, (k0_off1 i) a + S2048x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x2048.size a < S10000x10000.size a
  hwx0_0 : ∀ i : grid0.Coords, EltTy.bits .f32 = 32 ∨ (Rect.unit (s := S10000x10000) (fun a => cc0_transform_0 i a * S2048x2048.size a) (fun a => (Pipeline.Clip.of (cc0_transform_0 i a) (S2048x2048.size a) (S10000x10000.size a)).extent (S2048x2048.size a)) fun a => Pipeline.Clip.inb (Pipeline.Clip.ok_of (hstart0_0 i a))).WholeWords (EltTy.packing .f32)
  hwxs0_0 : ∀ i : grid0.Coords, EltTy.bits .f32 = 32 ∨ (Rect.unit (s := S2048x2048) (fun _ => 0) (fun a => (Pipeline.Clip.of (cc0_transform_0 i a) (S2048x2048.size a) (S10000x10000.size a)).extent (S2048x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x256.size a < S10000x256.size a
  hwx0_4 : ∀ i : grid0.Coords, EltTy.bits .f32 = 32 ∨ (Rect.unit (s := S10000x256) (fun a => cc0_transform_4 i a * S2048x256.size a) (fun a => (Pipeline.Clip.of (cc0_transform_4 i a) (S2048x256.size a) (S10000x256.size a)).extent (S2048x256.size a)) fun a => Pipeline.Clip.inb (Pipeline.Clip.ok_of (hstart0_4 i a))).WholeWords (EltTy.packing .f32)
  hwxs0_4 : ∀ i : grid0.Coords, EltTy.bits .f32 = 32 ∨ (Rect.unit (s := S2048x256) (fun _ => 0) (fun a => (Pipeline.Clip.of (cc0_transform_4 i a) (S2048x256.size a) (S10000x256.size a)).extent (S2048x256.size a)) fun a => (Nat.zero_add _).trans_le (Pipeline.Clip.extent_le (Pipeline.Clip.ok_of (hstart0_4 i a)))).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x1808_S1808x256_S2048x256_1_0_0_1_n_n : DotDims S2048x1808 S1808x256 S2048x256 where
  lhsContracting := [1]
  rhsContracting := [0]
  lhsNonContracting := [0]
  rhsNonContracting := [1]
  lhsBatch := []
  rhsBatch := []
  wf := dot_S2048x1808_S1808x256_S2048x256_1_0_0_1_n_n_wf

abbrev win0_0 : Pipeline.Window sig grid0 :=
  Pipeline.Window.ofSpecClip (Memref.whole main_arg1) S2048x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S2048x256.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) && !(k0_cond4 i == 1#1) | ⟨_ + 5, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KRuns.lean ====
/-
  The kernel body's four control cases on the 5 x 5 grid (m, k), point t = 5 m + k:
    case A  (m, k) = (0, 0): the support x @ W is computed into the scratch in five row chunks, then the
            output block is set to tile @ support[0 : 2048];
    case B  k = 0, m > 0: the output block is set to tile @ support[0 : 2048];
    case C  0 < k < 4: tile @ support[2048 k : 2048 (k + 1)] is added to the output block;
    case D  k = 4: the last, narrower stripe (1808 columns) is added, then the bias, then max with 0.
  Here: the four branch conditions as propositions over the grid coordinates and their closed forms
  over the 25 points.
-/
import proofs.«135547_g86638080295370_cont_9to1_m_131_31_alg».proof.Proof.Gen.Kernel.Frame
import proofs.«135547_g86638080295370_cont_9to1_m_131_31_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first branch's condition, m = 0 and k = 0, as the body computes it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond1 : ∀ t : Fin cfg0.N, cond1 (grid0.coords t) ↔ t.val = 0 :=
  (by decide +kernel : ∀ t : Fin grid0.N, cond1 (grid0.coords t) ↔ t.val = 0)
/-- k = 0: at the points divisible by 5. -/
theorem hcond2 : ∀ t : Fin cfg0.N, k0_cond2 (grid0.coords t) = 1#1 ↔ t.val % 5 = 0 :=
  (by decide +kernel : ∀ t : Fin grid0.N, k0_cond2 (grid0.coords t) = 1#1 ↔ t.val % 5 = 0)
/-- 0 < k < 4. -/
theorem hcond3 : ∀ t : Fin cfg0.N, k0_cond3 (grid0.coords t) = 1#1 ↔ (0 < t.val % 5 ∧ t.val % 5 < 4) :=
  (by decide +kernel : ∀ t : Fin grid0.N, k0_cond3 (grid0.coords t) = 1#1 ↔ (0 < t.val % 5 ∧ t.val % 5 < 4))
/-- k = 4. -/
theorem hcond4 : ∀ t : Fin cfg0.N, k0_cond4 (grid0.coords t) = 1#1 ↔ t.val % 5 = 4 :=
  (by decide +kernel : ∀ t : Fin grid0.N, k0_cond4 (grid0.coords t) = 1#1 ↔ t.val % 5 = 4)

/-- The grid coordinates of point t: m = t / 5, k = t % 5. -/
theorem coords_val : ∀ t : Fin cfg0.N, ((grid0.coords t 0).val = t.val / 5 ∧ (grid0.coords t 1).val = t.val % 5) :=
  (by decide +kernel : ∀ t : Fin grid0.N, ((grid0.coords t 0).val = t.val / 5 ∧ (grid0.coords t 1).val = t.val % 5))

/-- The stripe offset the body computes in case C is 2048 k. -/
theorem off1_val : ∀ t : Fin cfg0.N, (k0_off1 (grid0.coords t) 0 = 2048 * (t.val % 5) ∧ k0_off1 (grid0.coords t) 1 = 0) :=
  (by decide +kernel : ∀ t : Fin grid0.N, (k0_off1 (grid0.coords t) 0 = 2048 * (t.val % 5) ∧ k0_off1 (grid0.coords t) 1 = 0))

/-- Each window's current staging memref at point t and its wholeness. -/
abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
/-- The scratch holding the support matrix. -/
abbrev msS : Memref sig .tc .vmem S10000x256 .bf16 := Memref.whole cc0_scratch0
abbrev hsS : (msS).IsWhole := Memref.isWhole_whole _

end Cert.Kernel.Body

end
-- ==== Proof.KRunB.lean ====
/-
  Case B of the body (k = 0, m > 0), run symbolically on any whole staging memrefs: the four inputs and the
  scratch are handed back as they came, the output's buffer with the one whole-block store written.
-/
import proofs.«135547_g86638080295370_cont_9to1_m_131_31_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun_B (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; isplitr; · ipureintro; exact harg7.read_unread _
      iexact HS

end Cert.Kernel.Body

end
-- ==== Proof.KRunC.lean ====
/-
  Case C of the body (0 < k < 4), run symbolically on any whole staging memrefs: the output's buffer is loaded,
  the stripe's product added, and the whole block stored back; the inputs and the scratch are handed back as
  they came.
-/
import proofs.«135547_g86638080295370_cont_9to1_m_131_31_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRun_C (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; isplitr; · ipureintro; exact harg7.read_unread _
      iexact HS

end Cert.Kernel.Body

end
-- ==== Proof.KRunD.lean ====
/-
  Case D of the body (k = 4), run symbolically on any whole staging memrefs: the last, narrower stripe's product
  is added to the output's buffer, then the bias row, then the maximum with zero is stored back; the inputs and
  the scratch are handed back as they came.
-/
import proofs.«135547_g86638080295370_cont_9to1_m_131_31_alg».proof.Proof.KRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRun_D (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : ¬k0_cond3 i = 1#1) (hc4 : k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; isplitr; · ipureintro; exact harg7.read_unread _
      iexact HS

end Cert.Kernel.Body

end
-- ==== Proof.KRunA.lean ====
/-
  Case A of the body (the first point, m = 0 and k = 0), run symbolically on any whole staging memrefs: the
  support x @ W is stored into the scratch in five chunks of 2000 rows, then the output's buffer is set to
  tile @ support[0 : 2048]; the inputs are handed back as they came.
-/
import proofs.«135547_g86638080295370_cont_9to1_m_131_31_alg».proof.Proof.KRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
noncomputable def kernelRun_A (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    Σ' (L : List (View.Piece (Elt F) S2048x256 .f32)), { LS : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; iexact HS

end Cert.Kernel.Body

end
-- ==== Proof.KFrame.lean ====
/-
  The frame of the word-level program: every weakly fair run terminates without fault and leaves the four
  argument arrays as launched.

  Nothing is claimed of VALUES here, so every window of the pipeline is forgotten: at each of the 25 grid
  points the body is handed each window's current staging buffer, and the scratch, at SOME contents and hands
  each back at SOME contents. Which of the four control cases runs at a point is read off the closed forms of
  the branch conditions (first point; k = 0 later; 0 < k < 4; k = 4). The argument arrays are inputs of the
  pipeline (never written back) or bypass it, so the run's post reads each as it was at the region's entry,
  and no host operation before the region writes any of them.
-/
import proofs.«135547_g86638080295370_cont_9to1_m_131_31_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: every window forgotten -/

/-- Every window is forgotten. -/
abbrev forgets : Fin cfg0.W → Bool := fun _ => true

/-- The proof data of the one pipeline on core c: the arrays as the region finds them; what the body leaves in
    a staging buffer is not named (every window is forgotten, so nothing reads it); the invariant is the scoped
    rest (the scratch at some contents) and the generator register at some state; nothing owed; full shares. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation, at a generic point -/

/-- What the body is called with at point t: the invariant, what the core owes, and each window's current
    staging buffer at some contents; -/
def bodyPre (c : Dev nD) (t : Fin cfg0.N) : sProp 𝕄 :=
  iprop((dats m 0 c).Φ t.castSucc ∗ (dats m 0 c).owesAt () t.castSucc
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X)
    ∗ (∃ X, owns (c : Thread nD τ) (ms4 t) fullShare X))

/-- and what it returns: the same, each buffer again at some contents. -/
def bodyPost (c : Dev nD) (t : Fin cfg0.N) : sProp 𝕄 :=
  iprop((dats m 0 c).Φ t.succ ∗ (dats m 0 c).owesAt () t.succ
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X)
    ∗ (∃ X, owns (c : Thread nD τ) (ms4 t) fullShare X))

set_option maxHeartbeats 1600000 in
/-- The body at any point. The closed forms of the four branch conditions say which case the point is in; that
    case's run applies to the six buffers at whatever they hold, and hands back the four inputs as they came,
    the output's buffer with its stores written and the scratch as it came or with its stores written: each at
    some contents, which is all that is asked. The generator register passes through unread; the core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl]
  unfold Pipeline.ΦA
  rw [scopedRest0_eq]
  have hN : t.val < 25 := lt_of_lt_of_eq t.isLt (show cfg0.N = 25 from N_0)
  iintro ⟨⟨⟨%fS, HS⟩, Hr⟩, Ho, ⟨%X0, H0⟩, ⟨%X1, H1⟩, ⟨%X2, H2⟩, ⟨%X3, H3⟩, ⟨%X4, H4⟩⟩
  by_cases h0 : t.val = 0
  · -- the first point: the support is stored into the scratch, then the output block is set
    iapply ((kernelRun_A c (grid0.coords t) (ms0 t) (hs0 t) (ms1 t) (hs1 t) (ms2 t) (hs2 t) (ms3 t) (hs3 t) (ms4 t) (hs4 t) msS hsS
      ((hcond1 t).mpr h0) ((hcond2 t).mpr (by omega)) (fun h => by have := (hcond3 t).mp h; omega) (fun h => by have := (hcond4 t).mp h; omega) X0 X1 X2 X3 X4 fS).2.2 Set.univ _)
    isplitl [H0]; · iexact H0
    isplitl [H1]; · iexact H1
    isplitl [H2]; · iexact H2
    isplitl [H3]; · iexact H3
    isplitl [H4]; · iexact H4
    isplitl [HS]; · rw [owns_whole]; iexact HS
    iintro ⟨H0, H1, H2, H3, ⟨%e4, H4⟩, ⟨%eS, HS⟩⟩
    isplitl [HS Hr]
    · isplitl [HS]
      · iexists _; simp only [Memref.view_whole, View.set_whole]; iexact HS
      · iexact Hr
    isplitl [Ho]; · iexact Ho
    isplitl [H0]; · iexists _; iexact H0
    isplitl [H1]; · iexists _; iexact H1
    isplitl [H2]; · iexists _; iexact H2
    isplitl [H3]; · iexists _; iexact H3
    · iexists _; iapply owns_intro; iexact H4
  by_cases h5 : t.val % 5 = 0
  · -- k = 0 at a later row of the grid: the output block is set
    iapply ((kernelRun_B c (grid0.coords t) (ms0 t) (hs0 t) (ms1 t) (hs1 t) (ms2 t) (hs2 t) (ms3 t) (hs3 t) (ms4 t) (hs4 t) msS hsS
      (fun h => h0 ((hcond1 t).mp h)) ((hcond2 t).mpr h5) (fun h => by have := (hcond3 t).mp h; omega) (fun h => by have := (hcond4 t).mp h; omega) X0 X1 X2 X3 X4 fS).2 Set.univ _)
    isplitl [H0]; · iexact H0
    isplitl [H1]; · iexact H1
    isplitl [H2]; · iexact H2
    isplitl [H3]; · iexact H3
    isplitl [H4]; · iexact H4
    isplitl [HS]; · rw [owns_whole]; iexact HS
    iintro ⟨H0, H1, H2, H3, ⟨%e4, H4⟩, HS⟩
    isplitl [HS Hr]
    · isplitl [HS]
      · iexists fS; rw [← owns_whole]; iexact HS
      · iexact Hr
    isplitl [Ho]; · iexact Ho
    isplitl [H0]; · iexists _; iexact H0
    isplitl [H1]; · iexists _; iexact H1
    isplitl [H2]; · iexists _; iexact H2
    isplitl [H3]; · iexists _; iexact H3
    · iexists _; iapply owns_intro; iexact H4
  by_cases h4 : t.val % 5 = 4
  · -- k = 4: the last stripe, the bias and the maximum with zero
    iapply ((kernelRun_D c (grid0.coords t) (ms0 t) (hs0 t) (ms1 t) (hs1 t) (ms2 t) (hs2 t) (ms3 t) (hs3 t) (ms4 t) (hs4 t) msS hsS
      (fun h => h0 ((hcond1 t).mp h)) (fun h => h5 ((hcond2 t).mp h)) (fun h => by have := (hcond3 t).mp h; omega) ((hcond4 t).mpr h4) X0 X1 X2 X3 X4 fS).2 Set.univ _)
    isplitl [H0]; · iexact H0
    isplitl [H1]; · iexact H1
    isplitl [H2]; · iexact H2
    isplitl [H3]; · iexact H3
    isplitl [H4]; · iexact H4
    isplitl [HS]; · rw [owns_whole]; iexact HS
    iintro ⟨H0, H1, H2, H3, ⟨%e4, H4⟩, HS⟩
    isplitl [HS Hr]
    · isplitl [HS]
      · iexists fS; rw [← owns_whole]; iexact HS
      · iexact Hr
    isplitl [Ho]; · iexact Ho
    isplitl [H0]; · iexists _; iexact H0
    isplitl [H1]; · iexists _; iexact H1
    isplitl [H2]; · iexists _; iexact H2
    isplitl [H3]; · iexists _; iexact H3
    · iexists _; iapply owns_intro; iexact H4
  · -- 0 < k < 4: a stripe's product is added to the output block
    iapply ((kernelRun_C c (grid0.coords t) (ms0 t) (hs0 t) (ms1 t) (hs1 t) (ms2 t) (hs2 t) (ms3 t) (hs3 t) (ms4 t) (hs4 t) msS hsS
      (fun h => h0 ((hcond1 t).mp h)) (fun h => h5 ((hcond2 t).mp h)) ((hcond3 t).mpr (by omega)) (fun h => h4 ((hcond4 t).mp h)) X0 X1 X2 X3 X4 fS).2 Set.univ _)
    isplitl [H0]; · iexact H0
    isplitl [H1]; · iexact H1
    isplitl [H2]; · iexact H2
    isplitl [H3]; · iexact H3
    isplitl [H4]; · iexact H4
    isplitl [HS]; · rw [owns_whole]; iexact HS
    iintro ⟨H0, H1, H2, H3, ⟨%e4, H4⟩, HS⟩
    isplitl [HS Hr]
    · isplitl [HS]
      · iexists fS; rw [← owns_whole]; iexact HS
      · iexact Hr
    isplitl [Ho]; · iexact Ho
    isplitl [H0]; · iexists _; iexact H0
    isplitl [H1]; · iexists _; iexact H1
    isplitl [H2]; · iexists _; iexact H2
    isplitl [H3]; · iexists _; iexact H3
    · iexists _; iapply owns_intro; iexact H4

/-- The library's body obligation with every window forgotten, at every point. -/
theorem body_obligation (c : Dev nD) :
    BodyObligationLoose (dats (F := F) m 0 c) (defs₀ (F := F)) Variants.none () Set.univ forgets := fun t => by
  -- the windows conjoined one by one; every window's `match` on the mask takes its forgotten arm, before
  -- and after the body alike
  rw [bigSep_W0]
  exact sound_body m c t

/-! ## The run and the frame -/

set_option backward.isDefEq.respectTransparency.types false in
/-- At the compiled mesh, for any values, from any memory with zero counters: every weakly fair execution of
    @main on the TensorCores terminates, every input array of the pipeline ends as it was at the region's
    entry, nothing is stated of the output, and every other unscoped buffer ends as it was at the region's
    entry. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim's post from the run's: a staged input array is never written, so it ends at its entry
    contents; main_arg3 is no window's array and bypasses the region; and no host operation before the region
    writes an argument array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets).ArrAt_in 1 rfl _) _) ((h c).1 1)).trans ((A_eq m c 1).trans (V_main_arg0 m c)),
      (Eq.mp (congrFun (((dats m 0 c).toRForget forgets).ArrAt_in 0 rfl _) _) ((h c).1 0)).trans ((A_eq m c 0).trans (V_main_arg1 m c)),
      (Eq.mp (congrFun (((dats m 0 c).toRForget forgets).ArrAt_in 2 rfl _) _) ((h c).1 2)).trans ((A_eq m c 2).trans (V_main_arg2 m c)),
      ((h c).2 main_arg3 (Pipeline.mem_restRefs_of main_arg3 (by decide) (by decide))).trans (V_main_arg3 m c)⟩) (run_main m ρ)

end Cert.Kernel.Body

end
-- ==== Proof.Runs.lean ====
/-
  The kernel body's four control cases on the 5 x 5 grid (m, k), point t = 5 m + k:
    case A  (m, k) = (0, 0): the support x @ W is computed into the scratch in five row chunks, then the
            output block is set to tile @ support[0 : 2048];
    case B  k = 0, m > 0: the output block is set to tile @ support[0 : 2048];
    case C  0 < k < 4: tile @ support[2048 k : 2048 (k + 1)] is added to the output block;
    case D  k = 4: the last, narrower stripe (1808 columns) is added, then the bias, then max with 0.
  Here: the four branch conditions as propositions over the grid coordinates and their closed forms
  over the 25 points.
-/
import proofs.«135547_g86638080295370_cont_9to1_m_131_31_alg».proof.Proof.Gen.KernelIdeal.Frame
import proofs.«135547_g86638080295370_cont_9to1_m_131_31_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first branch's condition, m = 0 and k = 0, as the body computes it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond1 : ∀ t : Fin cfg0.N, cond1 (grid0.coords t) ↔ t.val = 0 :=
  (by decide +kernel : ∀ t : Fin grid0.N, cond1 (grid0.coords t) ↔ t.val = 0)
/-- k = 0: at the points divisible by 5. -/
theorem hcond2 : ∀ t : Fin cfg0.N, k0_cond2 (grid0.coords t) = 1#1 ↔ t.val % 5 = 0 :=
  (by decide +kernel : ∀ t : Fin grid0.N, k0_cond2 (grid0.coords t) = 1#1 ↔ t.val % 5 = 0)
/-- 0 < k < 4. -/
theorem hcond3 : ∀ t : Fin cfg0.N, k0_cond3 (grid0.coords t) = 1#1 ↔ (0 < t.val % 5 ∧ t.val % 5 < 4) :=
  (by decide +kernel : ∀ t : Fin grid0.N, k0_cond3 (grid0.coords t) = 1#1 ↔ (0 < t.val % 5 ∧ t.val % 5 < 4))
/-- k = 4. -/
theorem hcond4 : ∀ t : Fin cfg0.N, k0_cond4 (grid0.coords t) = 1#1 ↔ t.val % 5 = 4 :=
  (by decide +kernel : ∀ t : Fin grid0.N, k0_cond4 (grid0.coords t) = 1#1 ↔ t.val % 5 = 4)

/-- The grid coordinates of point t: m = t / 5, k = t % 5. -/
theorem coords_val : ∀ t : Fin cfg0.N, ((grid0.coords t 0).val = t.val / 5 ∧ (grid0.coords t 1).val = t.val % 5) :=
  (by decide +kernel : ∀ t : Fin grid0.N, ((grid0.coords t 0).val = t.val / 5 ∧ (grid0.coords t 1).val = t.val % 5))

/-- The stripe offset the body computes in case C is 2048 k. -/
theorem off1_val : ∀ t : Fin cfg0.N, (k0_off1 (grid0.coords t) 0 = 2048 * (t.val % 5) ∧ k0_off1 (grid0.coords t) 1 = 0) :=
  (by decide +kernel : ∀ t : Fin grid0.N, (k0_off1 (grid0.coords t) 0 = 2048 * (t.val % 5) ∧ k0_off1 (grid0.coords t) 1 = 0))

/-- Each window's current staging memref at point t and its wholeness. -/
abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
/-- The scratch holding the support matrix. -/
abbrev msS : Memref sig .tc .vmem S10000x256 .bf16 := Memref.whole cc0_scratch0
abbrev hsS : (msS).IsWhole := Memref.isWhole_whole _

end Cert.KernelIdeal.Body

end
-- ==== Proof.Spec.lean ====
/-
  The specification of one dense graph-convolution layer over the extended reals.

  For x : [10000, 256], adj : [10000, 10000], W : [256, 256], b : [256] the layer is
      out[i, c] = max (sum_{j < 10000} adj[i, j] * support[j, c] + b[c]) 0,
      support[j, c] = sum_{l < 256} x[j, l] * W[l, c].
  Entries are read at natural-number coordinates (zero outside the matrix), so that a sum over a
  stripe of columns [k * 2048, (k + 1) * 2048) is a sum over a range and stripes join by
  `Finset.sum_range_add`-style arithmetic in ℕ. Only commutativity and associativity of + on the
  extended reals are used anywhere: no entry needs to be finite.
-/
import Idealize.ShloMosaic.PureOps.Ideal
import Idealize.ShloMosaic.Lib.ValueIdx

noncomputable section

open scoped BigOperators

namespace Cert.Gcn

open Idealize.ShloMosaic Idealize.ShloMosaic.ValueIdx

abbrev SX : Shape := ⟨2, ![10000, 256]⟩
abbrev SA : Shape := ⟨2, ![10000, 10000]⟩
abbrev SW : Shape := ⟨2, ![256, 256]⟩
abbrev SB : Shape := ⟨1, ![256]⟩

/-- Entry (i, j) of a matrix at natural-number coordinates; zero outside the matrix. -/
def at2 {n0 n1 : Nat} (A : (⟨2, ![n0, n1]⟩ : Shape).Idx → EReal) (i j : ℕ) : EReal :=
  if h : i < n0 ∧ j < n1 then A (ix2 ⟨i, h.1⟩ ⟨j, h.2⟩) else 0

theorem at2_ix2 {n0 n1 : Nat} (A : (⟨2, ![n0, n1]⟩ : Shape).Idx → EReal) (i : Fin n0) (j : Fin n1) :
    at2 A i.val j.val = A (ix2 i j) := by
  unfold at2; rw [dif_pos ⟨i.isLt, j.isLt⟩]

theorem at2_of_lt {n0 n1 : Nat} (A : (⟨2, ![n0, n1]⟩ : Shape).Idx → EReal) {i j : ℕ} (hi : i < n0) (hj : j < n1) :
    at2 A i j = A (ix2 ⟨i, hi⟩ ⟨j, hj⟩) := by
  unfold at2; rw [dif_pos ⟨hi, hj⟩]

/-- support[j, c] = sum_l x[j, l] * W[l, c]. -/
def sup (x : SX.Idx → EReal) (W : SW.Idx → EReal) (j c : ℕ) : EReal :=
  ∑ l ∈ Finset.range 256, at2 x j l * at2 W l c

/-- The aggregation over the first `n` columns of the adjacency: sum_{j < n} adj[i, j] * support[j, c]. -/
def agg (x : SX.Idx → EReal) (adj : SA.Idx → EReal) (W : SW.Idx → EReal) (n i c : ℕ) : EReal :=
  ∑ j ∈ Finset.range n, at2 adj i j * sup x W j c

/-- Stripes of columns join: the aggregation over n + k columns is the one over n plus the next k. -/
theorem agg_add (x : SX.Idx → EReal) (adj : SA.Idx → EReal) (W : SW.Idx → EReal) (n k i c : ℕ) :
    agg x adj W (n + k) i c = agg x adj W n i c + ∑ j ∈ Finset.range k, at2 adj i (n + j) * sup x W (n + j) c := by
  unfold agg; exact Finset.sum_range_add _ n k

/-- The layer's result. -/
def out (x : SX.Idx → EReal) (adj : SA.Idx → EReal) (W : SW.Idx → EReal) (b : SB.Idx → EReal) : SX.Idx → EReal :=
  fun i => max (agg x adj W 10000 (i 0).val (i 1).val + b (ix1 (i 1))) 0

end Cert.Gcn

end
-- ==== Proof.Data.lean ====
/-
  The proof data of the idealized kernel's pipeline at the extended reals: what every staging buffer holds
  after the body at each of the 25 points, and what it holds when the body starts.
-/
import proofs.«135547_g86638080295370_cont_9to1_m_131_31_alg».proof.Proof.Runs
import proofs.«135547_g86638080295370_cont_9to1_m_131_31_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! ## The argument arrays as the region finds them -/

/-- x, the node features. -/
def xArr (c : Dev nD) : Cert.Gcn.SX.Idx → EReal := V m c main_arg0
/-- adj, the dense adjacency. -/
def adjArr (c : Dev nD) : Cert.Gcn.SA.Idx → EReal := V m c main_arg1
/-- W, the layer's weights. -/
def wArr (c : Dev nD) : Cert.Gcn.SW.Idx → EReal := V m c main_arg2
/-- The bias as the one-row matrix the host reshaped it to. -/
def bRow (c : Dev nD) : S1x256.Idx → EReal := V m c main_call0_v0

/-- The support x @ W, as the scratch holds it from the first point on. -/
def supS (c : Dev nD) : S10000x256.Idx → EReal := fun j =>
  Cert.Gcn.sup (xArr m c) (wArr m c) (j 0).val (j 1).val

/-- What the output's staging buffer holds after point t = 5 m + k at block position (r, q): the aggregation of
    row 2048 m + r over the first 2048 (k + 1) columns of the adjacency, and at k = 4 over all 10000 columns, plus
    the bias, clamped at zero. (Rows past the array's end, in the last row block, are never written back.) -/
def acc (c : Dev nD) (t : Fin cfg0.N) : S2048x256.Idx → EReal := fun j =>
  if t.val % 5 = 4 then
    max (Cert.Gcn.agg (xArr m c) (adjArr m c) (wArr m c) 10000 (2048 * (t.val / 5) + (j 0).val) (j 1).val
          + bRow m c (ix2 (0 : Fin 1) (j 1))) 0
  else Cert.Gcn.agg (xArr m c) (adjArr m c) (wArr m c) (2048 * (t.val % 5 + 1)) (2048 * (t.val / 5) + (j 0).val) (j 1).val

/-! ## The proof data -/

/-- The proof data of the one pipeline on core c: the arrays as the region finds them; after the body at point t
    the adjacency tile's buffer at its block (zero past the array's end), x's, W's and the bias row's at their
    blocks, the output's at `acc`; between points the scratch holds the support (before the first point:
    anything); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => acc m c t
  Φ t := if t.val = 0 then Pipeline.ΦA spec0 c
    else iprop(owns (c : Thread nD τ) msS fullShare (supS m c) ∗ ∃ r, prngReg c r)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) :
    (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = acc m c t := by dsimp only [dats]

/-- The scratch invariant before the first point is the class's: the scratch at anything. -/
theorem Phi_zero (c : Dev nD) : (dats m 0 c).Φ 0 = Pipeline.ΦA spec0 c := by
  dsimp only [dats]; exact if_pos rfl
/-- After any point it holds the support. -/
theorem Phi_pos (c : Dev nD) (t : Fin (cfg0.N + 1)) (ht : t.val ≠ 0) :
    (dats m 0 c).Φ t = iprop(owns (c : Thread nD τ) msS fullShare (supS m c) ∗ ∃ r, prngReg c r) := by
  dsimp only [dats]; exact if_neg ht

/-! ## What the body finds -/

/-- The output window is idle nowhere: at every point one of the three stores into it runs. -/
theorem hidle4 : ∀ t : Fin cfg0.N, cfg0.idle (4 : Fin cfg0.W) (cfg0.grid.coords t) = false :=
  (by decide +kernel : ∀ t : Fin grid0.N, idle0 (4 : Fin 5) (grid0.coords t) = false)

/-- The adjacency tile's buffer was just fetched: its block on the part inside the array, anything elsewhere. -/
theorem before0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
/-- x's, W's and the bias row's buffers hold their (whole-array) blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
/-- At k = 0 the output's buffer is fresh (the first point, or the point before wrote the block back). -/
theorem before4_reset (c : Dev nD) (t : Fin cfg0.N) (h0 : t.val % 5 = 0) (d) : (dats m 0 c).before 4 t d = d := by
  have hN : t.val < 25 := lt_of_lt_of_eq t.isLt (show cfg0.N = 25 from N_0)
  refine Dat.before_out_reset _ 4 rfl t ?_ d
  by_cases ht : t.val = 0
  · exact .inl ht
  · exact .inr ⟨ht, (flush0_4 _).mpr (by dsimp only; omega)⟩
/-- At k > 0 it holds what the body left at the point before, on the rows inside the array. -/
theorem before4_acc (c : Dev nD) (t : Fin cfg0.N) (h0 : ¬t.val % 5 = 0) (d) :
    (dats m 0 c).before 4 t d
      = win0_4.fill (grid0.coords ⟨t.val - 1, Nat.lt_of_le_of_lt (Nat.sub_le _ _) t.isLt⟩) d
          (win0_4.cut (grid0.coords ⟨t.val - 1, Nat.lt_of_le_of_lt (Nat.sub_le _ _) t.isLt⟩)
            (acc m c ⟨t.val - 1, Nat.lt_of_le_of_lt (Nat.sub_le _ _) t.isLt⟩)) := by
  have hN : t.val < 25 := lt_of_lt_of_eq t.isLt (show cfg0.N = 25 from N_0)
  have ht : t.val ≠ 0 := fun h => h0 (by rw [h])
  have hfl : (cfg0.win 4).flush ⟨t.val - 1, Nat.lt_of_le_of_lt (Nat.sub_le _ _) t.isLt⟩ = false :=
    Bool.eq_false_iff.mpr fun h => by have := (flush0_4 _).mp h; dsimp only at this; omega
  rw [(dats m 0 c).before_of_pos 4 t ht ((cfg0.win 4).fetch_out rfl t), hfl, if_neg Bool.false_ne_true]
  unfold Dat.left; rw [hidle4]; dsimp only
  unfold Dat.kept; rw [after4]

end Cert.KernelIdeal.Body

end
-- ==== Proof.RunB.lean ====
/-
  Case B of the body (k = 0, m > 0), run symbolically on any whole staging memrefs: the four inputs and the
  scratch are handed back as they came, the output's buffer with the one whole-block store written.
-/
import proofs.«135547_g86638080295370_cont_9to1_m_131_31_alg».proof.Proof.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun_B (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; isplitr; · ipureintro; exact harg7.read_unread _
      iexact HS

end Cert.KernelIdeal.Body

end
-- ==== Proof.RunC.lean ====
/-
  Case C of the body (0 < k < 4), run symbolically on any whole staging memrefs: the output's buffer is loaded,
  the stripe's product added, and the whole block stored back; the inputs and the scratch are handed back as
  they came.
-/
import proofs.«135547_g86638080295370_cont_9to1_m_131_31_alg».proof.Proof.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRun_C (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; isplitr; · ipureintro; exact harg7.read_unread _
      iexact HS

end Cert.KernelIdeal.Body

end
-- ==== Proof.RunD.lean ====
/-
  Case D of the body (k = 4), run symbolically on any whole staging memrefs: the last, narrower stripe's product
  is added to the output's buffer, then the bias row, then the maximum with zero is stored back; the inputs and
  the scratch are handed back as they came.
-/
import proofs.«135547_g86638080295370_cont_9to1_m_131_31_alg».proof.Proof.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRun_D (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : ¬k0_cond3 i = 1#1) (hc4 : k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; isplitr; · ipureintro; exact harg7.read_unread _
      iexact HS

end Cert.KernelIdeal.Body

end
-- ==== Proof.RunA.lean ====
/-
  Case A of the body (the first point, m = 0 and k = 0), run symbolically on any whole staging memrefs: the
  support x @ W is stored into the scratch in five chunks of 2000 rows, then the output's buffer is set to
  tile @ support[0 : 2048]; the inputs are handed back as they came.
-/
import proofs.«135547_g86638080295370_cont_9to1_m_131_31_alg».proof.Proof.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
noncomputable def kernelRun_A (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    Σ' (L : List (View.Piece (Elt F) S2048x256 .f32)), { LS : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    · iexists _; iexact HS

end Cert.KernelIdeal.Body

end
-- ==== Proof.Pieces.lean ====
/-
  What each control case of the body leaves in the output's staging buffer (and, at the first point, in the
  scratch), as a pure function of what the buffers held: the one whole-block store's payload, and for the
  scratch the five row chunks of 2000 rows each.
-/
import proofs.«135547_g86638080295370_cont_9to1_m_131_31_alg».proof.Proof.RunA
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The views through which the contents are stated (the choice does not matter: the stores cover the block). -/
abbrev VO : View sig .tc .vmem S2048x256 .f32 := (Memref.whole cc0_stg4_0 : Memref sig .tc .vmem S2048x256 .f32).view
abbrev VS : View sig .tc .vmem S10000x256 .bf16 := (msS).view

theorem hz2 : (![0, 0] : Fin 2 → Nat) = fun _ => 0 := funext fun a => by fin_cases a <;> rfl

/-! ### k = 0, m > 0 -/

theorem cover_B (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) (y : S2048x256.Idx) :
    ∃ pc ∈ (kernelRun_B c i arg2 harg2 arg3 harg3 arg4 harg4 arg5 harg5 arg6 harg6 arg7 harg7 hc1 hc2 hc3 hc4 x0 x1 x2 x3 xo xs).1, y ∈ pc.1.set :=
  View.cover_of_tiledL (kernelRun_B c i arg2 harg2 arg3 harg3 arg4 harg4 arg5 harg5 arg6 harg6 arg7 harg7 hc1 hc2 hc3 hc4 x0 x1 x2 x3 xo xs).1 S2048x256.size (by sl_kernel_rfl) y

def out_B (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) : Vec F S2048x256 .f32 :=
  VO.read (Elt F) (VO.writes (Elt F) VO.junk (kernelRun_B c i arg2 harg2 arg3 harg3 arg4 harg4 arg5 harg5 arg6 harg6 arg7 harg7 hc1 hc2 hc3 hc4 x0 x1 x2 x3 xo xs).1)

/-- The block is set to tile @ support[0 : 2048]. -/
theorem out_B_eq (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    out_B c i arg2 harg2 arg3 harg3 arg4 harg4 arg5 harg5 arg6 harg6 arg7 harg7 hc1 hc2 hc3 hc4 x0 x1 x2 x3 xo xs
      = k0_pay2 x0 (View.ld xs (Rect.unit (s := S10000x256) ![0, 0] S2048x256.size inb_S10000x256_S2048x256_0_0)) := by
  unfold out_B
  rw [View.read_writes_eq_canon _ _ _ (cover_B c i arg2 harg2 arg3 harg3 arg4 harg4 arg5 harg5 arg6 harg6 arg7 harg7 hc1 hc2 hc3 hc4 x0 x1 x2 x3 xo xs)]
  unfold kernelRun_B; dsimp only
  rw [View.canon_unit_zero hz2]
  simp only [View.readAt_eq_ld, harg2.read_unread, harg7.read_unread, View.ld_unit_zero (S := S2048x2048) hz2]

/-! ### 0 < k < 4 -/

theorem cover_C (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) (y : S2048x256.Idx) :
    ∃ pc ∈ (kernelRun_C c i arg2 harg2 arg3 harg3 arg4 harg4 arg5 harg5 arg6 harg6 arg7 harg7 hc1 hc2 hc3 hc4 x0 x1 x2 x3 xo xs).1, y ∈ pc.1.set :=
  View.cover_of_tiledL (kernelRun_C c i arg2 harg2 arg3 harg3 arg4 harg4 arg5 harg5 arg6 harg6 arg7 harg7 hc1 hc2 hc3 hc4 x0 x1 x2 x3 xo xs).1 S2048x256.size (by sl_kernel_rfl) y

def out_C (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) : Vec F S2048x256 .f32 :=
  VO.read (Elt F) (VO.writes (Elt F) VO.junk (kernelRun_C c i arg2 harg2 arg3 harg3 arg4 harg4 arg5 harg5 arg6 harg6 arg7 harg7 hc1 hc2 hc3 hc4 x0 x1 x2 x3 xo xs).1)

/-- The stripe's product is added to what the block held. -/
theorem out_C_eq (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    out_C c i arg2 harg2 arg3 harg3 arg4 harg4 arg5 harg5 arg6 harg6 arg7 harg7 hc1 hc2 hc3 hc4 x0 x1 x2 x3 xo xs
      = k0_pay3 xo x0 (View.ld xs (Rect.unit (s := S10000x256) (k0_off1 i) S2048x256.size (k0_off1_inb i hc3))) := by
  unfold out_C
  rw [View.read_writes_eq_canon _ _ _ (cover_C c i arg2 harg2 arg3 harg3 arg4 harg4 arg5 harg5 arg6 harg6 arg7 harg7 hc1 hc2 hc3 hc4 x0 x1 x2 x3 xo xs)]
  unfold kernelRun_C; dsimp only
  sl_unfold_words
  rw [View.canon_unit_zero hz2]
  simp only [View.readAt_eq_ld, harg2.read_unread, harg6.read_unread, harg7.read_unread, View.ld_unit_zero (S := S2048x2048) hz2, View.ld_unit_zero (S := S2048x256) hz2]

/-! ### k = 4 -/

theorem cover_D (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : ¬k0_cond3 i = 1#1) (hc4 : k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) (y : S2048x256.Idx) :
    ∃ pc ∈ (kernelRun_D c i arg2 harg2 arg3 harg3 arg4 harg4 arg5 harg5 arg6 harg6 arg7 harg7 hc1 hc2 hc3 hc4 x0 x1 x2 x3 xo xs).1, y ∈ pc.1.set :=
  View.cover_of_tiledL (kernelRun_D c i arg2 harg2 arg3 harg3 arg4 harg4 arg5 harg5 arg6 harg6 arg7 harg7 hc1 hc2 hc3 hc4 x0 x1 x2 x3 xo xs).1 S2048x256.size (by sl_kernel_rfl) y

def out_D (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : ¬k0_cond3 i = 1#1) (hc4 : k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) : Vec F S2048x256 .f32 :=
  VO.read (Elt F) (VO.writes (Elt F) VO.junk (kernelRun_D c i arg2 harg2 arg3 harg3 arg4 harg4 arg5 harg5 arg6 harg6 arg7 harg7 hc1 hc2 hc3 hc4 x0 x1 x2 x3 xo xs).1)

/-- The last stripe's product (1808 columns), then the bias row, are added and the result clamped at zero. -/
theorem out_D_eq (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : ¬cond1 i) (hc2 : ¬k0_cond2 i = 1#1) (hc3 : ¬k0_cond3 i = 1#1) (hc4 : k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    out_D c i arg2 harg2 arg3 harg3 arg4 harg4 arg5 harg5 arg6 harg6 arg7 harg7 hc1 hc2 hc3 hc4 x0 x1 x2 x3 xo xs
      = k0_pay4 xo (View.ld x0 (Rect.unit (s := S2048x2048) ![0, 0] S2048x1808.size inb_S2048x2048_S2048x1808_0_0))
          (View.ld xs (Rect.unit (s := S10000x256) ![8192, 0] S1808x256.size inb_S10000x256_S1808x256_8192_0)) x3 := by
  unfold out_D
  rw [View.read_writes_eq_canon _ _ _ (cover_D c i arg2 harg2 arg3 harg3 arg4 harg4 arg5 harg5 arg6 harg6 arg7 harg7 hc1 hc2 hc3 hc4 x0 x1 x2 x3 xo xs)]
  unfold kernelRun_D; dsimp only
  rw [View.canon_unit_zero hz2]
  simp only [View.readAt_eq_ld, harg2.read_unread, harg5.read_unread, harg6.read_unread, harg7.read_unread, View.ld_unit_zero (S := S2048x256) hz2, View.ld_unit_zero (S := S1x256) hz2]

/-! ### The first point -/

theorem cover_A (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) (y : S2048x256.Idx) :
    ∃ pc ∈ (kernelRun_A c i arg2 harg2 arg3 harg3 arg4 harg4 arg5 harg5 arg6 harg6 arg7 harg7 hc1 hc2 hc3 hc4 x0 x1 x2 x3 xo xs).1, y ∈ pc.1.set :=
  View.cover_of_tiledL (kernelRun_A c i arg2 harg2 arg3 harg3 arg4 harg4 arg5 harg5 arg6 harg6 arg7 harg7 hc1 hc2 hc3 hc4 x0 x1 x2 x3 xo xs).1 S2048x256.size (by sl_kernel_rfl) y

theorem coverS_A (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) (y : S10000x256.Idx) :
    ∃ pc ∈ (kernelRun_A c i arg2 harg2 arg3 harg3 arg4 harg4 arg5 harg5 arg6 harg6 arg7 harg7 hc1 hc2 hc3 hc4 x0 x1 x2 x3 xo xs).2.1, y ∈ pc.1.set :=
  View.cover_of_tiledL (kernelRun_A c i arg2 harg2 arg3 harg3 arg4 harg4 arg5 harg5 arg6 harg6 arg7 harg7 hc1 hc2 hc3 hc4 x0 x1 x2 x3 xo xs).2.1 S2000x256.size (by sl_kernel_rfl) y

/-- What the first point leaves in the scratch: the five chunks read back. -/
def scr_A (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) : Vec F S10000x256 .bf16 :=
  VS.read (Elt F) (VS.writes (Elt F) VS.junk (kernelRun_A c i arg2 harg2 arg3 harg3 arg4 harg4 arg5 harg5 arg6 harg6 arg7 harg7 hc1 hc2 hc3 hc4 x0 x1 x2 x3 xo xs).2.1)

def out_A (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) : Vec F S2048x256 .f32 :=
  VO.read (Elt F) (VO.writes (Elt F) VO.junk (kernelRun_A c i arg2 harg2 arg3 harg3 arg4 harg4 arg5 harg5 arg6 harg6 arg7 harg7 hc1 hc2 hc3 hc4 x0 x1 x2 x3 xo xs).1)

/-- At the first point the block is set to tile @ (what the five chunks left)[0 : 2048]. -/
theorem out_A_eq (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec F S2048x2048 .f32) (x1 : Vec F S10000x256 .f32) (x2 : Vec F S256x256 .f32) (x3 : Vec F S1x256 .f32) (xo : Vec F S2048x256 .f32) (xs : Vec F S10000x256 .bf16) :
    out_A c i arg2 harg2 arg3 harg3 arg4 harg4 arg5 harg5 arg6 harg6 arg7 harg7 hc1 hc2 hc3 hc4 x0 x1 x2 x3 xo xs
      = k0_pay2 x0 (View.ld (scr_A c i arg2 harg2 arg3 harg3 arg4 harg4 arg5 harg5 arg6 harg6 arg7 harg7 hc1 hc2 hc3 hc4 x0 x1 x2 x3 xo xs)
          (Rect.unit (s := S10000x256) ![0, 0] S2048x256.size inb_S10000x256_S2048x256_0_0)) := by
  unfold out_A scr_A
  rw [View.read_writes_junk_eq_canon, View.read_writes_junk_eq_canon]
  unfold kernelRun_A; dsimp only
  sl_unfold_words
  rw [View.canon_unit_zero hz2, View.readCov_eq_canon']
  simp only [View.readAt_eq_ld, harg2.read_unread, View.ld_unit_zero (S := S2048x2048) hz2]

end Cert.KernelIdeal.Body

end
-- ==== Proof.PayIdeal.lean ====
import proofs.«135547_g86638080295370_cont_9to1_m_131_31_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal Cert.KernelIdeal.Gen

/-! # The kernel's payloads read at an index, at the ideal values

Each payload of the kernel is a composition of pointwise operations, casts of a shape to itself, one
broadcast of a row over the rows, and one matrix product into a zero accumulator. Read at the index
(r, c) and at the extended reals, the pointwise operations are +, max and the identity; the casts are
the identity; the broadcast reads row 0; and the matrix product is the sum over the shared axis of the
products of the operands' entries. The three matrix products differ only in their extents. -/

/-! ## The matrix products -/

/-! ### [2000, 256] times [256, 256] -/

theorem lhs0_2000_256_256 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhs1_2000_256_256 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs0_2000_256_256 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs1_2000_256_256 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The contraction of a [2000, 256] matrix with a [256, 256] matrix into a zero accumulator, read at
    (r, c): the sum over the shared axis of the products of row r of the left with column c of the right. -/
theorem mm_2000_256_256 (A : FVec Ideal S2000x256 .f32) (B : FVec Ideal S256x256 .f32) (r : Fin 2000) (c : Fin 256) :
    matmul (F := Ideal) dot_S2000x256_S256x256_S2000x256_1_0_0_1_n_n none A B (constant S2000x256 .f32 0x00000000#32) (ix2 r c)
      = ∑ l : Fin 256, A (ix2 r l) * B (ix2 l c) := by
  refine (Ideal.matmul_constant_zero_apply dot_S2000x256_S256x256_S2000x256_1_0_0_1_n_n none A B (ix2 r c)).trans ?_
  rw [← Equiv.sum_comp (contrEquiv1 dot_S2000x256_S256x256_S2000x256_1_0_0_1_n_n 256 rfl rfl).symm]
  refine Finset.sum_congr rfl fun l _ => ?_
  have hl := contrEquiv1_symm_val dot_S2000x256_S256x256_S2000x256_1_0_0_1_n_n 256 rfl rfl l
  have el : dot_S2000x256_S256x256_S2000x256_1_0_0_1_n_n.lhsIdx (ix2 r c) ((contrEquiv1 dot_S2000x256_S256x256_S2000x256_1_0_0_1_n_n 256 rfl rfl).symm l) = ix2 r l :=
    funext fun a => Fin.ext (by
      match a with
      | ⟨0, _⟩ => exact lhs0_2000_256_256 _ _
      | ⟨1, _⟩ => exact (lhs1_2000_256_256 _ _).trans hl)
  have er : dot_S2000x256_S256x256_S2000x256_1_0_0_1_n_n.rhsIdx (ix2 r c) ((contrEquiv1 dot_S2000x256_S256x256_S2000x256_1_0_0_1_n_n 256 rfl rfl).symm l) = ix2 l c :=
    funext fun a => Fin.ext (by
      match a with
      | ⟨0, _⟩ => exact (rhs0_2000_256_256 _ _).trans hl
      | ⟨1, _⟩ => exact rhs1_2000_256_256 _ _)
  rw [el, er]

/-! ### [2048, 2048] times [2048, 256] -/

theorem lhs0_2048_2048_256 (i : S2048x256.Idx) (q : dot_S2048x2048_S2048x256_S2048x256_1_0_0_1_n_n.contr.Idx) : (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide),
    dif_pos (show (0 : Fin S2048x2048.rank) ∈ dot_S2048x2048_S2048x256_S2048x256_1_0_0_1_n_n.lhsNonContracting by decide)]
  rfl
theorem lhs1_2048_2048_256 (i : S2048x256.Idx) (q : dot_S2048x2048_S2048x256_S2048x256_1_0_0_1_n_n.contr.Idx) : (dot_S2048x2048_S2048x256_S2048x256_1_0_0_1_n_n.lhsIdx i q 1).val = (q ⟨0, by decide⟩).val :=
  dot_S2048x2048_S2048x256_S2048x256_1_0_0_1_n_n.lhsIdx_val_of_single rfl i q
theorem rhs0_2048_2048_256 (i : S2048x256.Idx) (q : dot_S2048x2048_S2048x256_S2048x256_1_0_0_1_n_n.contr.Idx) : (dot_S2048x2048_S2048x256_S2048x256_1_0_0_1_n_n.rhsIdx i q 0).val = (q ⟨0, by decide⟩).val :=
  dot_S2048x2048_S2048x256_S2048x256_1_0_0_1_n_n.rhsIdx_val_of_single rfl i q
theorem rhs1_2048_2048_256 (i : S2048x256.Idx) (q : dot_S2048x2048_S2048x256_S2048x256_1_0_0_1_n_n.contr.Idx) : (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide),
    dif_pos (show (1 : Fin S2048x256.rank) ∈ dot_S2048x2048_S2048x256_S2048x256_1_0_0_1_n_n.rhsNonContracting by decide)]
  rfl

/-- The contraction of a [2048, 2048] matrix with a [2048, 256] matrix into a zero accumulator, read at
    (r, c): the sum over the shared axis of the products of row r of the left with column c of the right. -/
theorem mm_2048_2048_256 (A : FVec Ideal S2048x2048 .f32) (B : FVec Ideal S2048x256 .bf16) (r : Fin 2048) (c : Fin 256) :
    matmul (F := Ideal) dot_S2048x2048_S2048x256_S2048x256_1_0_0_1_n_n none A B (constant S2048x256 .f32 0x00000000#32) (ix2 r c)
      = ∑ l : Fin 2048, A (ix2 r l) * B (ix2 l c) := by
  refine (Ideal.matmul_constant_zero_apply dot_S2048x2048_S2048x256_S2048x256_1_0_0_1_n_n none A B (ix2 r c)).trans ?_
  rw [← Equiv.sum_comp (contrEquiv1 dot_S2048x2048_S2048x256_S2048x256_1_0_0_1_n_n 2048 rfl rfl).symm]
  refine Finset.sum_congr rfl fun l _ => ?_
  have hl := contrEquiv1_symm_val dot_S2048x2048_S2048x256_S2048x256_1_0_0_1_n_n 2048 rfl rfl l
  have el : dot_S2048x2048_S2048x256_S2048x256_1_0_0_1_n_n.lhsIdx (ix2 r c) ((contrEquiv1 dot_S2048x2048_S2048x256_S2048x256_1_0_0_1_n_n 2048 rfl rfl).symm l) = ix2 r l :=
    funext fun a => Fin.ext (by
      match a with
      | ⟨0, _⟩ => exact lhs0_2048_2048_256 _ _
      | ⟨1, _⟩ => exact (lhs1_2048_2048_256 _ _).trans hl)
  have er : dot_S2048x2048_S2048x256_S2048x256_1_0_0_1_n_n.rhsIdx (ix2 r c) ((contrEquiv1 dot_S2048x2048_S2048x256_S2048x256_1_0_0_1_n_n 2048 rfl rfl).symm l) = ix2 l c :=
    funext fun a => Fin.ext (by
      match a with
      | ⟨0, _⟩ => exact (rhs0_2048_2048_256 _ _).trans hl
      | ⟨1, _⟩ => exact rhs1_2048_2048_256 _ _)
  rw [el, er]

/-! ### [2048, 1808] times [1808, 256] -/

theorem lhs0_2048_1808_256 (i : S2048x256.Idx) (q : dot_S2048x1808_S1808x256_S2048x256_1_0_0_1_n_n.contr.Idx) : (dot_S2048x1808_S1808x256_S2048x256_1_0_0_1_n_n.lhsIdx i q 0).val = (i 0).val := by
  unfold DotDims.lhsIdx
  rw [dif_neg (show ¬(0 : Fin S2048x1808.rank) ∈ dot_S2048x1808_S1808x256_S2048x256_1_0_0_1_n_n.lhsBatch by decide),
    dif_pos (show (0 : Fin S2048x1808.rank) ∈ dot_S2048x1808_S1808x256_S2048x256_1_0_0_1_n_n.lhsNonContracting by decide)]
  rfl
theorem lhs1_2048_1808_256 (i : S2048x256.Idx) (q : dot_S2048x1808_S1808x256_S2048x256_1_0_0_1_n_n.contr.Idx) : (dot_S2048x1808_S1808x256_S2048x256_1_0_0_1_n_n.lhsIdx i q 1).val = (q ⟨0, by decide⟩).val :=
  dot_S2048x1808_S1808x256_S2048x256_1_0_0_1_n_n.lhsIdx_val_of_single rfl i q
theorem rhs0_2048_1808_256 (i : S2048x256.Idx) (q : dot_S2048x1808_S1808x256_S2048x256_1_0_0_1_n_n.contr.Idx) : (dot_S2048x1808_S1808x256_S2048x256_1_0_0_1_n_n.rhsIdx i q 0).val = (q ⟨0, by decide⟩).val :=
  dot_S2048x1808_S1808x256_S2048x256_1_0_0_1_n_n.rhsIdx_val_of_single rfl i q
theorem rhs1_2048_1808_256 (i : S2048x256.Idx) (q : dot_S2048x1808_S1808x256_S2048x256_1_0_0_1_n_n.contr.Idx) : (dot_S2048x1808_S1808x256_S2048x256_1_0_0_1_n_n.rhsIdx i q 1).val = (i 1).val := by
  unfold DotDims.rhsIdx
  rw [dif_neg (show ¬(1 : Fin S1808x256.rank) ∈ dot_S2048x1808_S1808x256_S2048x256_1_0_0_1_n_n.rhsBatch by decide),
    dif_pos (show (1 : Fin S1808x256.rank) ∈ dot_S2048x1808_S1808x256_S2048x256_1_0_0_1_n_n.rhsNonContracting by decide)]
  rfl

/-- The contraction of a [2048, 1808] matrix with a [1808, 256] matrix into a zero accumulator, read at
    (r, c): the sum over the shared axis of the products of row r of the left with column c of the right. -/
theorem mm_2048_1808_256 (A : FVec Ideal S2048x1808 .f32) (B : FVec Ideal S1808x256 .bf16) (r : Fin 2048) (c : Fin 256) :
    matmul (F := Ideal) dot_S2048x1808_S1808x256_S2048x256_1_0_0_1_n_n none A B (constant S2048x256 .f32 0x00000000#32) (ix2 r c)
      = ∑ l : Fin 1808, A (ix2 r l) * B (ix2 l c) := by
  refine (Ideal.matmul_constant_zero_apply dot_S2048x1808_S1808x256_S2048x256_1_0_0_1_n_n none A B (ix2 r c)).trans ?_
  rw [← Equiv.sum_comp (contrEquiv1 dot_S2048x1808_S1808x256_S2048x256_1_0_0_1_n_n 1808 rfl rfl).symm]
  refine Finset.sum_congr rfl fun l _ => ?_
  have hl := contrEquiv1_symm_val dot_S2048x1808_S1808x256_S2048x256_1_0_0_1_n_n 1808 rfl rfl l
  have el : dot_S2048x1808_S1808x256_S2048x256_1_0_0_1_n_n.lhsIdx (ix2 r c) ((contrEquiv1 dot_S2048x1808_S1808x256_S2048x256_1_0_0_1_n_n 1808 rfl rfl).symm l) = ix2 r l :=
    funext fun a => Fin.ext (by
      match a with
      | ⟨0, _⟩ => exact lhs0_2048_1808_256 _ _
      | ⟨1, _⟩ => exact (lhs1_2048_1808_256 _ _).trans hl)
  have er : dot_S2048x1808_S1808x256_S2048x256_1_0_0_1_n_n.rhsIdx (ix2 r c) ((contrEquiv1 dot_S2048x1808_S1808x256_S2048x256_1_0_0_1_n_n 1808 rfl rfl).symm l) = ix2 l c :=
    funext fun a => Fin.ext (by
      match a with
      | ⟨0, _⟩ => exact (rhs0_2048_1808_256 _ _).trans hl
      | ⟨1, _⟩ => exact rhs1_2048_1808_256 _ _)
  rw [el, er]

/-! ## The payloads read at an index -/

/-- A [2000, 256] matrix times a [256, 256] matrix, narrowed to the stored format (the identity on
    extended reals) and cast to its own shape (the identity). -/
theorem pay1_apply (v : Vec Ideal S2000x256 .f32) (w : Vec Ideal S256x256 .f32) (r : Fin 2000) (c : Fin 256) :
    k0_pay1 (F := Ideal) v w (ix2 r c) = ∑ l : Fin 256, v (ix2 r l) * w (ix2 l c) := by
  unfold k0_pay1
  refine Eq.trans (congrFun (shapeCast_self _ _) (ix2 r c)) ?_
  refine Eq.trans (truncf_apply (ψ := .bf16) _ _ (ix2 r c)) ?_
  exact mm_2000_256_256 v w r c

/-- A [2048, 2048] matrix times a [2048, 256] matrix. -/
theorem pay2_apply (T : Vec Ideal S2048x2048 .f32) (S : Vec Ideal S2048x256 .bf16) (r : Fin 2048) (c : Fin 256) :
    k0_pay2 (F := Ideal) T S (ix2 r c) = ∑ j : Fin 2048, T (ix2 r j) * S (ix2 j c) := by
  unfold k0_pay2
  exact mm_2048_2048_256 T S r c

/-- The same product added to a [2048, 256] matrix P (cast to its own shape). -/
theorem pay3_apply (P : Vec Ideal S2048x256 .f32) (T : Vec Ideal S2048x2048 .f32) (S : Vec Ideal S2048x256 .bf16)
    (r : Fin 2048) (c : Fin 256) :
    k0_pay3 (F := Ideal) P T S (ix2 r c) = P (ix2 r c) + ∑ j : Fin 2048, T (ix2 r j) * S (ix2 j c) := by
  unfold k0_pay3
  refine (addf_apply _ _ _).trans ?_
  exact congrArg₂ (· + ·) (congrFun (shapeCast_self P _) (ix2 r c)) (mm_2048_2048_256 T S r c)

/-- A [2048, 1808] matrix times a [1808, 256] matrix, added to a [2048, 256] matrix P, plus the one row of
    B broadcast over the 2048 rows, and the maximum of that with zero. -/
theorem pay4_apply (P : Vec Ideal S2048x256 .f32) (T : Vec Ideal S2048x1808 .f32) (S : Vec Ideal S1808x256 .bf16)
    (B : Vec Ideal S1x256 .f32) (r : Fin 2048) (c : Fin 256) :
    k0_pay4 (F := Ideal) P T S B (ix2 r c)
      = max (P (ix2 r c) + ∑ j : Fin 1808, T (ix2 r j) * S (ix2 j c) + B (ix2 (0 : Fin 1) c)) 0 := by
  unfold k0_pay4
  refine (maximumf_apply _ _ _).trans ?_
  refine congrArg₂ max ?_ ?_
  · refine (addf_apply _ _ _).trans ?_
    refine congrArg₂ (· + ·) ?_ ?_
    · refine (addf_apply _ _ _).trans ?_
      exact congrArg₂ (· + ·) (congrFun (shapeCast_self P _) (ix2 r c)) (mm_2048_1808_256 T S r c)
    · refine (broadcastTo_1b_ab_apply _ _ r c).trans ?_
      exact congrFun (shapeCast_self B _) (ix2 (0 : Fin 1) c)
  · show Ideal.ofBits .f32 0x00000000#32 = 0
    exact Ideal.ofBits_zero_f32

/-- A [2000, 256] matrix times a [256, 256] matrix, narrowed to the stored format (the identity on
    extended reals) and cast to its own shape (the identity). -/
theorem pay5_apply (v : Vec Ideal S2000x256 .f32) (w : Vec Ideal S256x256 .f32) (r : Fin 2000) (c : Fin 256) :
    k0_pay5 (F := Ideal) v w (ix2 r c) = ∑ l : Fin 256, v (ix2 r l) * w (ix2 l c) := by
  unfold k0_pay5
  refine Eq.trans (congrFun (shapeCast_self _ _) (ix2 r c)) ?_
  refine Eq.trans (truncf_apply (ψ := .bf16) _ _ (ix2 r c)) ?_
  exact mm_2000_256_256 v w r c

/-- A [2000, 256] matrix times a [256, 256] matrix, narrowed to the stored format (the identity on
    extended reals) and cast to its own shape (the identity). -/
theorem pay6_apply (v : Vec Ideal S2000x256 .f32) (w : Vec Ideal S256x256 .f32) (r : Fin 2000) (c : Fin 256) :
    k0_pay6 (F := Ideal) v w (ix2 r c) = ∑ l : Fin 256, v (ix2 r l) * w (ix2 l c) := by
  unfold k0_pay6
  refine Eq.trans (congrFun (shapeCast_self _ _) (ix2 r c)) ?_
  refine Eq.trans (truncf_apply (ψ := .bf16) _ _ (ix2 r c)) ?_
  exact mm_2000_256_256 v w r c

/-- A [2000, 256] matrix times a [256, 256] matrix, narrowed to the stored format (the identity on
    extended reals) and cast to its own shape (the identity). -/
theorem pay7_apply (v : Vec Ideal S2000x256 .f32) (w : Vec Ideal S256x256 .f32) (r : Fin 2000) (c : Fin 256) :
    k0_pay7 (F := Ideal) v w (ix2 r c) = ∑ l : Fin 256, v (ix2 r l) * w (ix2 l c) := by
  unfold k0_pay7
  refine Eq.trans (congrFun (shapeCast_self _ _) (ix2 r c)) ?_
  refine Eq.trans (truncf_apply (ψ := .bf16) _ _ (ix2 r c)) ?_
  exact mm_2000_256_256 v w r c

/-- A [2000, 256] matrix times a [256, 256] matrix, narrowed to the stored format (the identity on
    extended reals) and cast to its own shape (the identity). -/
theorem pay8_apply (v : Vec Ideal S2000x256 .f32) (w : Vec Ideal S256x256 .f32) (r : Fin 2000) (c : Fin 256) :
    k0_pay8 (F := Ideal) v w (ix2 r c) = ∑ l : Fin 256, v (ix2 r l) * w (ix2 l c) := by
  unfold k0_pay8
  refine Eq.trans (congrFun (shapeCast_self _ _) (ix2 r c)) ?_
  refine Eq.trans (truncf_apply (ψ := .bf16) _ _ (ix2 r c)) ?_
  exact mm_2000_256_256 v w r c

end Cert.KernelIdeal.PayIdeal

end
-- ==== Proof.Support.lean ====
/-
  The scratch after the first point holds the support x @ W: each of the five chunks of 2000 rows stores the
  product of its rows of x with W, and the chunks tile the 10000 rows.
-/
import proofs.«135547_g86638080295370_cont_9to1_m_131_31_alg».proof.Proof.Data
import proofs.«135547_g86638080295370_cont_9to1_m_131_31_alg».proof.Proof.Pieces
import proofs.«135547_g86638080295370_cont_9to1_m_131_31_alg».proof.Proof.PayIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

open Cert.KernelIdeal.PayIdeal

variable (m : (ℓ : Loc nD τ sig) → Buf (Elt Ideal) ℓ)

/-- One chunk: rows o .. o + 2000 of x times W are rows o .. o + 2000 of the support. -/
theorem chunk_value (c : Dev nD) (o : ℕ) (inb : ∀ a, (![o, 0] : Fin 2 → ℕ) a + S2000x256.size a ≤ S10000x256.size a)
    (r : Fin 2000) (q : Fin 256) :
    (∑ l : Fin 256, View.ld (Val := Elt Ideal) (e' := EltTy.f32) (xArr m c) (Rect.unit (s := S10000x256) ![o, 0] S2000x256.size inb) (ix2 r l) * wArr m c (ix2 l q))
      = supS m c ((Rect.unit (s := S10000x256) ![o, 0] S2000x256.size inb).emb (ix2 r q)) := by
  have hr : o + r.val < 10000 := by have h : o + 2000 ≤ 10000 := inb 0; have := r.isLt; omega
  have e0 : (((Rect.unit (s := S10000x256) ![o, 0] S2000x256.size inb).emb (ix2 r q)) 0).val = o + r.val := by
    show o + 1 * r.val = _; omega
  have e1 : (((Rect.unit (s := S10000x256) ![o, 0] S2000x256.size inb).emb (ix2 r q)) 1).val = q.val := by
    show 0 + 1 * q.val = _; omega
  unfold supS Cert.Gcn.sup
  rw [e0, e1, ← Fin.sum_univ_eq_sum_range (fun l => Cert.Gcn.at2 (xArr m c) (o + r.val) l * Cert.Gcn.at2 (wArr m c) l q.val) 256]
  refine Finset.sum_congr rfl fun l _ => ?_
  rw [Cert.Gcn.at2_of_lt (xArr m c) hr l.isLt, Cert.Gcn.at2_of_lt (wArr m c) l.isLt q.isLt]
  congr 1
  show xArr m c ((Rect.unit (s := S10000x256) ![o, 0] S2000x256.size inb).idx (ix2 r l)) = _
  refine congrArg (xArr m c) (funext fun a => Fin.ext ?_)
  match a with
  | ⟨0, _⟩ => show o + 1 * r.val = o + r.val; omega
  | ⟨1, _⟩ => show 0 + 1 * l.val = l.val; omega

/-- What the first point leaves in the scratch, when x's and W's buffers hold x and W, is the support. -/
theorem scr_A_value (c : Dev nD) (i : grid0.Coords) (arg2 : Memref sig .tc .vmem S2048x2048 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S10000x256 .bf16) (harg7 : arg7.IsWhole)
    (hc1 : cond1 i) (hc2 : k0_cond2 i = 1#1) (hc3 : ¬k0_cond3 i = 1#1) (hc4 : ¬k0_cond4 i = 1#1)
    (x0 : Vec Ideal S2048x2048 .f32) (x3 : Vec Ideal S1x256 .f32) (xo : Vec Ideal S2048x256 .f32) (xs : Vec Ideal S10000x256 .bf16) :
    scr_A c i arg2 harg2 arg3 harg3 arg4 harg4 arg5 harg5 arg6 harg6 arg7 harg7 hc1 hc2 hc3 hc4 x0 (xArr m c) (wArr m c) x3 xo xs = supS m c := by
  unfold scr_A
  funext y
  refine View.read_writes_apply_of_pieces (v := VS) (f := VS.junk) (supS m c) _ ?_ y
    (coverS_A c i arg2 harg2 arg3 harg3 arg4 harg4 arg5 harg5 arg6 harg6 arg7 harg7 hc1 hc2 hc3 hc4 x0 (xArr m c) (wArr m c) x3 xo xs y)
  unfold kernelRun_A; dsimp only
  sl_unfold_words
  intro p hp
  simp only [List.mem_cons, List.not_mem_nil, or_false] at hp
  rcases hp with rfl | rfl | rfl | rfl | rfl
  all_goals
    intro x
    obtain ⟨r, q, rfl⟩ : ∃ (r : Fin 2000) (q : Fin 256), x = ix2 r q := ⟨x 0, x 1, eq_ix2 x⟩
    simp only [View.readAt_eq_ld, harg3.read_unread, harg4.read_unread, View.ld_unit_zero (S := S256x256) hz2]
  · exact (pay1_apply _ _ r q).trans (chunk_value m c 8000 _ r q)
  · exact (pay8_apply _ _ r q).trans (chunk_value m c 6000 _ r q)
  · exact (pay7_apply _ _ r q).trans (chunk_value m c 4000 _ r q)
  · exact (pay6_apply _ _ r q).trans (chunk_value m c 2000 _ r q)
  · exact (pay5_apply _ _ r q).trans (chunk_value m c 0 _ r q)

end Cert.KernelIdeal.Body

end
-- ==== Proof.Value.lean ====
/-
  The arithmetic of one grid point at the extended reals: on the rows of the output block that lie inside the
  array, what the body stores is the aggregation over the columns seen so far — whatever the staging buffers held
  past the arrays' ends.
-/
import proofs.«135547_g86638080295370_cont_9to1_m_131_31_alg».proof.Proof.Data
import proofs.«135547_g86638080295370_cont_9to1_m_131_31_alg».proof.Proof.PayIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

open Cert.KernelIdeal.PayIdeal

variable (m : (ℓ : Loc nD τ sig) → Buf (Elt Ideal) ℓ)

/-! ## The windows' index maps and moved sizes, decided over the 25 points -/

/-- The three whole-array windows sit at block index 0 on both axes at every point. -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0))

/-- The adjacency tile at point t = 5 m + k is block (m, k). -/
theorem idx_tile : ∀ t : Fin cfg0.N, win0_0.index t (0 : Fin 2) = t.val / 5 ∧ win0_0.index t (1 : Fin 2) = t.val % 5 :=
  (by decide +kernel : ∀ t : Fin grid0.N, win0_0.index t (0 : Fin 2) = t.val / 5 ∧ win0_0.index t (1 : Fin 2) = t.val % 5)

/-- The part of the tile inside the array: 1808 rows in the last row block, 1808 columns in the last column block,
    2048 otherwise. -/
theorem xsize_tile : ∀ t : Fin cfg0.N,
    win0_0.xsize (grid0.coords t) (0 : Fin 2) = (if t.val / 5 = 4 then 1808 else 2048)
    ∧ win0_0.xsize (grid0.coords t) (1 : Fin 2) = (if t.val % 5 = 4 then 1808 else 2048) :=
  (by decide +kernel : ∀ t : Fin grid0.N,
    win0_0.xsize (grid0.coords t) (0 : Fin 2) = (if t.val / 5 = 4 then 1808 else 2048)
    ∧ win0_0.xsize (grid0.coords t) (1 : Fin 2) = (if t.val % 5 = 4 then 1808 else 2048))

/-- The part of the output block inside the array: 1808 rows in the last row block, 2048 otherwise; all 256 columns. -/
theorem xsize_out : ∀ t : Fin cfg0.N,
    win0_4.xsize (grid0.coords t) (0 : Fin 2) = (if t.val / 5 = 4 then 1808 else 2048)
    ∧ win0_4.xsize (grid0.coords t) (1 : Fin 2) = 256 :=
  (by decide +kernel : ∀ t : Fin grid0.N,
    win0_4.xsize (grid0.coords t) (0 : Fin 2) = (if t.val / 5 = 4 then 1808 else 2048)
    ∧ win0_4.xsize (grid0.coords t) (1 : Fin 2) = 256)

/-! ## The whole-array windows' blocks are the arrays -/

theorem iblk1_eq (c : Dev nD) (t : Fin cfg0.N) : iblk m c 1 t = xArr m c := by
  obtain ⟨⟨e0, e1⟩, -, -⟩ := idx_whole t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 256 + 1 * (y 1).val = (y 1).val; omega
theorem iblk2_eq (c : Dev nD) (t : Fin cfg0.N) : iblk m c 2 t = wArr m c := by
  obtain ⟨-, ⟨e0, e1⟩, -⟩ := idx_whole t
  funext y
  show V m c main_arg2 (((cfg0.win 2).blk t).view.emb y) = V m c main_arg2 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega
theorem iblk3_eq (c : Dev nD) (t : Fin cfg0.N) : iblk m c 3 t = bRow m c := by
  obtain ⟨-, -, ⟨e0, e1⟩⟩ := idx_whole t
  funext y
  show V m c main_call0_v0 (((cfg0.win 3).blk t).view.emb y) = V m c main_call0_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-! ## Reading the body's operands at a position -/

/-- The adjacency tile's buffer after the fetch, at a position (r, j) inside the part the fetch moved, holds
    the adjacency at row 2048 m + r, column 2048 k + j. -/
theorem tile_at (c : Dev nD) (t : Fin cfg0.N) (d0 : S2048x2048.Idx → EReal) (r j : Fin 2048)
    (hr : r.val < win0_0.xsize (grid0.coords t) (0 : Fin 2)) (hj : j.val < win0_0.xsize (grid0.coords t) (1 : Fin 2)) :
    win0_0.fill (grid0.coords t) d0 (iblk m c 0 t) (ix2 r j)
      = Cert.Gcn.at2 (adjArr m c) (2048 * (t.val / 5) + r.val) (2048 * (t.val % 5) + j.val) := by
  have hN : t.val < 25 := lt_of_lt_of_eq t.isLt (show cfg0.N = 25 from N_0)
  obtain ⟨i0, i1⟩ := idx_tile t
  obtain ⟨x0, x1⟩ := xsize_tile t
  have hb0 : 2048 * (t.val / 5) + r.val < 10000 := by rw [x0] at hr; split at hr <;> omega
  have hb1 : 2048 * (t.val % 5) + j.val < 10000 := by rw [x1] at hj; split at hj <;> omega
  have hmv : win0_0.moved (grid0.coords t) (ix2 r j) = true :=
    (win0_0.moved_iff (grid0.coords t) (ix2 r j)).mpr fun a => by
      match a with
      | ⟨0, _⟩ => exact hr
      | ⟨1, _⟩ => exact hj
  unfold Pipeline.Window.fill
  rw [dif_pos hmv, Cert.Gcn.at2_of_lt _ hb0 hb1]
  show V m c main_arg1 (((cfg0.win 0).blk t).view.emb _) = V m c main_arg1 (ix2 ⟨_, hb0⟩ ⟨_, hb1⟩)
  refine congrArg _ (funext fun a => Fin.ext ?_)
  match a with
  | ⟨0, _⟩ => show win0_0.index t (0 : Fin 2) * 2048 + 1 * r.val = 2048 * (t.val / 5) + r.val; omega
  | ⟨1, _⟩ => show win0_0.index t (1 : Fin 2) * 2048 + 1 * j.val = 2048 * (t.val % 5) + j.val; omega

/-- The scratch read through a unit-stride rectangle at offsets off, at a position (j, q) of the rectangle, is
    the support at row off 0 + j, column off 1 + q. -/
theorem stripe_at (c : Dev nD) (K : ℕ) (off : Fin 2 → ℕ)
    (inb : ∀ a, off a + (⟨2, ![K, 256]⟩ : Shape).size a ≤ S10000x256.size a) (j : Fin K) (q : Fin 256) :
    View.ld (Val := Elt Ideal) (e' := .bf16) (supS m c) (Rect.unit (s := S10000x256) off (⟨2, ![K, 256]⟩ : Shape).size inb) (ix2 j q)
      = Cert.Gcn.sup (xArr m c) (wArr m c) (off 0 + j.val) (off 1 + q.val) := by
  show Cert.Gcn.sup (xArr m c) (wArr m c) (off 0 + 1 * j.val) (off 1 + 1 * q.val) = _
  rw [Nat.one_mul, Nat.one_mul]

/-- The output's buffer as the point before left it, at a position (r, q) on a row inside the array. -/
theorem prev_at (c : Dev nD) (t' : Fin cfg0.N) (d4 : S2048x256.Idx → EReal) (r : Fin 2048) (q : Fin 256)
    (hr : r.val < win0_4.xsize (grid0.coords t') (0 : Fin 2)) :
    win0_4.fill (grid0.coords t') d4 (win0_4.cut (grid0.coords t') (acc m c t')) (ix2 r q) = acc m c t' (ix2 r q) := by
  obtain ⟨-, x1⟩ := xsize_out t'
  have hmv : win0_4.moved (grid0.coords t') (ix2 r q) = true :=
    (win0_4.moved_iff (grid0.coords t') (ix2 r q)).mpr fun a => by
      match a with
      | ⟨0, _⟩ => exact hr
      | ⟨1, _⟩ => show q.val < win0_4.xsize (grid0.coords t') (1 : Fin 2); rw [x1]; exact q.isLt
  unfold Pipeline.Window.fill
  rw [dif_pos hmv]
  exact congrArg (acc m c t') (funext fun a => Fin.ext (by
    match a with
    | ⟨0, _⟩ => rfl
    | ⟨1, _⟩ => rfl))

/-- Before the last column stripe the output's buffer holds the aggregation over the first 2048 (k + 1) columns. -/
theorem acc_of_ne (c : Dev nD) (t : Fin cfg0.N) (h : ¬t.val % 5 = 4) (r : Fin 2048) (q : Fin 256) :
    acc m c t (ix2 r q)
      = Cert.Gcn.agg (xArr m c) (adjArr m c) (wArr m c) (2048 * (t.val % 5 + 1)) (2048 * (t.val / 5) + r.val) q.val := by
  unfold acc; exact if_neg h
/-- After it: the aggregation over all 10000 columns, plus the bias, clamped at zero. -/
theorem acc_of_eq (c : Dev nD) (t : Fin cfg0.N) (h : t.val % 5 = 4) (r : Fin 2048) (q : Fin 256) :
    acc m c t (ix2 r q)
      = max (Cert.Gcn.agg (xArr m c) (adjArr m c) (wArr m c) 10000 (2048 * (t.val / 5) + r.val) q.val
          + bRow m c (ix2 (0 : Fin 1) q)) 0 := by
  unfold acc; exact if_pos h

/-- A sum over the K positions of a stripe whose factors are two functions of the natural-number column
    n + j is the sum over the range. -/
theorem stripe_sum (K n : ℕ) (T S : Fin K → EReal) (f g : ℕ → EReal)
    (hT : ∀ j : Fin K, T j = f (n + j.val)) (hS : ∀ j : Fin K, S j = g (n + j.val)) :
    ∑ j : Fin K, T j * S j = ∑ j ∈ Finset.range K, f (n + j) * g (n + j) := by
  rw [← Fin.sum_univ_eq_sum_range (fun j => f (n + j) * g (n + j)) K]
  exact Finset.sum_congr rfl fun j _ => by rw [hT j, hS j]

/-- No column: the empty aggregation is zero. -/
theorem agg_zero (x : Cert.Gcn.SX.Idx → EReal) (adj : Cert.Gcn.SA.Idx → EReal) (W : Cert.Gcn.SW.Idx → EReal) (i q : ℕ) :
    Cert.Gcn.agg x adj W 0 i q = 0 := by
  unfold Cert.Gcn.agg; exact Finset.sum_range_zero _

/-- One stripe of K columns starting at column n joins the aggregation over the first n columns. -/
theorem stripe_step (c : Dev nD) (K n row col : ℕ) (T S : Fin K → EReal)
    (hT : ∀ j : Fin K, T j = Cert.Gcn.at2 (adjArr m c) row (n + j.val))
    (hS : ∀ j : Fin K, S j = Cert.Gcn.sup (xArr m c) (wArr m c) (n + j.val) col) :
    Cert.Gcn.agg (xArr m c) (adjArr m c) (wArr m c) n row col + ∑ j : Fin K, T j * S j
      = Cert.Gcn.agg (xArr m c) (adjArr m c) (wArr m c) (n + K) row col := by
  rw [Cert.Gcn.agg_add, stripe_sum K n T S (fun j => Cert.Gcn.at2 (adjArr m c) row j)
    (fun j => Cert.Gcn.sup (xArr m c) (wArr m c) j col) hT hS]

/-- The leading 1808 columns of the tile's buffer, read at (r, j), are the buffer at (r, j). -/
theorem lead_at (X : S2048x2048.Idx → EReal) (r : Fin 2048) (j : Fin 1808) :
    View.ld (Val := Elt Ideal) (e' := .f32) X
        (Rect.unit (s := S2048x2048) ![0, 0] S2048x1808.size inb_S2048x2048_S2048x1808_0_0) (ix2 r j)
      = X (ix2 r ⟨j.val, Nat.lt_trans j.isLt (by decide)⟩) := by
  show X _ = X _
  refine congrArg X (funext fun a => Fin.ext ?_)
  match a with
  | ⟨0, _⟩ => show 0 + 1 * r.val = r.val; omega
  | ⟨1, _⟩ => show 0 + 1 * j.val = j.val; omega

/-! ## One point's arithmetic, on the rows inside the array -/

/-- k = 0: the block is set to the aggregation over the first 2048 columns. -/
theorem value_first (c : Dev nD) (t : Fin cfg0.N) (h0 : t.val % 5 = 0) (d0 : S2048x2048.Idx → EReal) :
    win0_4.cut (grid0.coords t)
        (k0_pay2 (F := Ideal) (win0_0.fill (grid0.coords t) d0 (iblk m c 0 t))
          (View.ld (supS m c) (Rect.unit (s := S10000x256) ![0, 0] S2048x256.size inb_S10000x256_S2048x256_0_0)))
      = win0_4.cut (grid0.coords t) (acc m c t) := by
  have hN : t.val < 25 := lt_of_lt_of_eq t.isLt (show cfg0.N = 25 from N_0)
  obtain ⟨x40, x41⟩ := xsize_out t
  obtain ⟨x00, x01⟩ := xsize_tile t
  funext j
  have hr4 : (j 0).val < win0_4.xsize (grid0.coords t) (0 : Fin 2) := (j 0).isLt
  have hq : (j 1).val < 256 := lt_of_lt_of_eq (j 1).isLt x41
  have hr : (j 0).val < 2048 := by have h := hr4; rw [x40] at h; split at h <;> omega
  have hr0 : (j 0).val < win0_0.xsize (grid0.coords t) (0 : Fin 2) := by rw [x00, ← x40]; exact hr4
  have e : win0_4.xinj (grid0.coords t) j = ix2 (⟨(j 0).val, hr⟩ : Fin 2048) (⟨(j 1).val, hq⟩ : Fin 256) :=
    funext fun a => Fin.ext (by
      match a with
      | ⟨0, _⟩ => rfl
      | ⟨1, _⟩ => rfl)
  show k0_pay2 (F := Ideal) _ _ (win0_4.xinj (grid0.coords t) j) = acc m c t (win0_4.xinj (grid0.coords t) j)
  rw [e]
  refine (pay2_apply _ _ _ _).trans ?_
  refine Eq.trans ?_ (acc_of_ne m c t (by omega) _ _).symm
  have en : 2048 * (t.val % 5 + 1) = 0 + 2048 := by omega
  rw [en]
  refine Eq.trans ?_ (stripe_step m c 2048 0 _ _
    (fun l => win0_0.fill (grid0.coords t) d0 (iblk m c 0 t) (ix2 (⟨(j 0).val, hr⟩ : Fin 2048) l))
    (fun l => View.ld (Val := Elt Ideal) (e' := .bf16) (supS m c) (Rect.unit (s := S10000x256) ![0, 0] S2048x256.size inb_S10000x256_S2048x256_0_0) (ix2 l (⟨(j 1).val, hq⟩ : Fin 256)))
    (fun l => ?_) (fun l => ?_))
  · rw [agg_zero, zero_add]
  · refine (tile_at m c t d0 _ l hr0 (by rw [x01]; split <;> omega)).trans ?_
    rw [show 2048 * (t.val % 5) = 0 by omega]
  · refine (stripe_at m c 2048 ![0, 0] inb_S10000x256_S2048x256_0_0 l _).trans ?_
    show Cert.Gcn.sup _ _ (0 + l.val) (0 + (j 1).val) = _
    rw [Nat.zero_add (j 1).val]

/-- 0 < k < 4: the stripe [2048 k, 2048 (k + 1)) is added to what the point before left. -/
theorem value_mid (c : Dev nD) (t : Fin cfg0.N) (h3 : 0 < t.val % 5 ∧ t.val % 5 < 4) (hc3 : k0_cond3 (grid0.coords t) = 1#1)
    (d0 : S2048x2048.Idx → EReal) (d4 : S2048x256.Idx → EReal) :
    win0_4.cut (grid0.coords t)
        (k0_pay3 (F := Ideal)
          (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩)))
          (win0_0.fill (grid0.coords t) d0 (iblk m c 0 t))
          (View.ld (supS m c) (Rect.unit (s := S10000x256) (k0_off1 (grid0.coords t)) S2048x256.size (k0_off1_inb (grid0.coords t) hc3))))
      = win0_4.cut (grid0.coords t) (acc m c t) := by
  have hN : t.val < 25 := lt_of_lt_of_eq t.isLt (show cfg0.N = 25 from N_0)
  obtain ⟨x40, x41⟩ := xsize_out t
  obtain ⟨x00, x01⟩ := xsize_tile t
  obtain ⟨p40, -⟩ := xsize_out ⟨t.val - 1, Nat.lt_of_le_of_lt (Nat.sub_le _ _) t.isLt⟩
  obtain ⟨o0, o1⟩ := off1_val t
  funext j
  have hr4 : (j 0).val < win0_4.xsize (grid0.coords t) (0 : Fin 2) := (j 0).isLt
  have hq : (j 1).val < 256 := lt_of_lt_of_eq (j 1).isLt x41
  have hr : (j 0).val < 2048 := by have h := hr4; rw [x40] at h; split at h <;> omega
  have hr0 : (j 0).val < win0_0.xsize (grid0.coords t) (0 : Fin 2) := by rw [x00, ← x40]; exact hr4
  have hrp : (j 0).val < win0_4.xsize (grid0.coords ⟨t.val - 1, Nat.lt_of_le_of_lt (Nat.sub_le _ _) t.isLt⟩) (0 : Fin 2) := by
    rw [p40]; have h := hr4; rw [x40] at h
    show (j 0).val < if (t.val - 1) / 5 = 4 then 1808 else 2048
    rw [show (t.val - 1) / 5 = t.val / 5 by omega]; exact h
  have e : win0_4.xinj (grid0.coords t) j = ix2 (⟨(j 0).val, hr⟩ : Fin 2048) (⟨(j 1).val, hq⟩ : Fin 256) :=
    funext fun a => Fin.ext (by
      match a with
      | ⟨0, _⟩ => rfl
      | ⟨1, _⟩ => rfl)
  show k0_pay3 (F := Ideal) _ _ _ (win0_4.xinj (grid0.coords t) j) = acc m c t (win0_4.xinj (grid0.coords t) j)
  rw [e]
  refine (pay3_apply _ _ _ _ _).trans ?_
  refine Eq.trans ?_ (acc_of_ne m c t (by omega) _ _).symm
  have en : 2048 * (t.val % 5 + 1) = 2048 * (t.val % 5) + 2048 := by omega
  rw [en]
  refine Eq.trans ?_ (stripe_step m c 2048 (2048 * (t.val % 5)) _ _
    (fun l => win0_0.fill (grid0.coords t) d0 (iblk m c 0 t) (ix2 (⟨(j 0).val, hr⟩ : Fin 2048) l))
    (fun l => View.ld (Val := Elt Ideal) (e' := .bf16) (supS m c) (Rect.unit (s := S10000x256) (k0_off1 (grid0.coords t)) S2048x256.size (k0_off1_inb (grid0.coords t) hc3)) (ix2 l (⟨(j 1).val, hq⟩ : Fin 256)))
    (fun l => ?_) (fun l => ?_))
  · refine congrArg (· + _) ?_
    refine (prev_at m c ⟨t.val - 1, Nat.lt_of_le_of_lt (Nat.sub_le _ _) t.isLt⟩ d4 _ _ hrp).trans ?_
    refine (acc_of_ne m c ⟨t.val - 1, Nat.lt_of_le_of_lt (Nat.sub_le _ _) t.isLt⟩ (by show ¬(t.val - 1) % 5 = 4; omega) _ _).trans ?_
    show Cert.Gcn.agg _ _ _ (2048 * ((t.val - 1) % 5 + 1)) (2048 * ((t.val - 1) / 5) + (j 0).val) (j 1).val = _
    rw [show (t.val - 1) % 5 + 1 = t.val % 5 by omega, show (t.val - 1) / 5 = t.val / 5 by omega]
  · exact tile_at m c t d0 _ l hr0 (by rw [x01]; split <;> omega)
  · refine (stripe_at m c 2048 (k0_off1 (grid0.coords t)) (k0_off1_inb (grid0.coords t) hc3) l _).trans ?_
    rw [o0, o1]
    show Cert.Gcn.sup _ _ (2048 * (t.val % 5) + l.val) (0 + (j 1).val) = _
    rw [Nat.zero_add (j 1).val]

/-- k = 4: the last stripe [8192, 10000) is added, then the bias, and the sum is clamped at zero. -/
theorem value_last (c : Dev nD) (t : Fin cfg0.N) (h4 : t.val % 5 = 4)
    (d0 : S2048x2048.Idx → EReal) (d4 : S2048x256.Idx → EReal) :
    win0_4.cut (grid0.coords t)
        (k0_pay4 (F := Ideal)
          (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩)))
          (View.ld (win0_0.fill (grid0.coords t) d0 (iblk m c 0 t)) (Rect.unit (s := S2048x2048) ![0, 0] S2048x1808.size inb_S2048x2048_S2048x1808_0_0))
          (View.ld (supS m c) (Rect.unit (s := S10000x256) ![8192, 0] S1808x256.size inb_S10000x256_S1808x256_8192_0))
          (bRow m c))
      = win0_4.cut (grid0.coords t) (acc m c t) := by
  have hN : t.val < 25 := lt_of_lt_of_eq t.isLt (show cfg0.N = 25 from N_0)
  obtain ⟨x40, x41⟩ := xsize_out t
  obtain ⟨x00, x01⟩ := xsize_tile t
  obtain ⟨p40, -⟩ := xsize_out ⟨t.val - 1, Nat.lt_of_le_of_lt (Nat.sub_le _ _) t.isLt⟩
  funext j
  have hr4 : (j 0).val < win0_4.xsize (grid0.coords t) (0 : Fin 2) := (j 0).isLt
  have hq : (j 1).val < 256 := lt_of_lt_of_eq (j 1).isLt x41
  have hr : (j 0).val < 2048 := by have h := hr4; rw [x40] at h; split at h <;> omega
  have hr0 : (j 0).val < win0_0.xsize (grid0.coords t) (0 : Fin 2) := by rw [x00, ← x40]; exact hr4
  have hrp : (j 0).val < win0_4.xsize (grid0.coords ⟨t.val - 1, Nat.lt_of_le_of_lt (Nat.sub_le _ _) t.isLt⟩) (0 : Fin 2) := by
    rw [p40]; have h := hr4; rw [x40] at h
    show (j 0).val < if (t.val - 1) / 5 = 4 then 1808 else 2048
    rw [show (t.val - 1) / 5 = t.val / 5 by omega]; exact h
  have e : win0_4.xinj (grid0.coords t) j = ix2 (⟨(j 0).val, hr⟩ : Fin 2048) (⟨(j 1).val, hq⟩ : Fin 256) :=
    funext fun a => Fin.ext (by
      match a with
      | ⟨0, _⟩ => rfl
      | ⟨1, _⟩ => rfl)
  show k0_pay4 (F := Ideal) _ _ _ _ (win0_4.xinj (grid0.coords t) j) = acc m c t (win0_4.xinj (grid0.coords t) j)
  rw [e]
  refine (pay4_apply _ _ _ _ _ _).trans ?_
  refine Eq.trans ?_ (acc_of_eq m c t h4 _ _).symm
  refine congrArg (fun z => max (z + _) 0) ?_
  rw [show (10000 : ℕ) = 2048 * (t.val % 5) + 1808 by omega]
  refine Eq.trans ?_ (stripe_step m c 1808 (2048 * (t.val % 5)) _ _
    (fun l => View.ld (Val := Elt Ideal) (e' := .f32) (win0_0.fill (grid0.coords t) d0 (iblk m c 0 t)) (Rect.unit (s := S2048x2048) ![0, 0] S2048x1808.size inb_S2048x2048_S2048x1808_0_0) (ix2 (⟨(j 0).val, hr⟩ : Fin 2048) l))
    (fun l => View.ld (Val := Elt Ideal) (e' := .bf16) (supS m c) (Rect.unit (s := S10000x256) ![8192, 0] S1808x256.size inb_S10000x256_S1808x256_8192_0) (ix2 l (⟨(j 1).val, hq⟩ : Fin 256)))
    (fun l => ?_) (fun l => ?_))
  · refine congrArg (· + _) ?_
    refine (prev_at m c ⟨t.val - 1, Nat.lt_of_le_of_lt (Nat.sub_le _ _) t.isLt⟩ d4 _ _ hrp).trans ?_
    refine (acc_of_ne m c ⟨t.val - 1, Nat.lt_of_le_of_lt (Nat.sub_le _ _) t.isLt⟩ (by show ¬(t.val - 1) % 5 = 4; omega) _ _).trans ?_
    show Cert.Gcn.agg _ _ _ (2048 * ((t.val - 1) % 5 + 1)) (2048 * ((t.val - 1) / 5) + (j 0).val) (j 1).val = _
    rw [show (t.val - 1) % 5 + 1 = t.val % 5 by omega, show (t.val - 1) / 5 = t.val / 5 by omega]
  · refine (lead_at _ _ l).trans ?_
    exact tile_at m c t d0 _ ⟨l.val, Nat.lt_trans l.isLt (by decide)⟩ hr0 (by rw [x01, if_pos h4]; exact l.isLt)
  · refine (stripe_at m c 1808 ![8192, 0] inb_S10000x256_S1808x256_8192_0 l _).trans ?_
    show Cert.Gcn.sup _ _ (8192 + l.val) (0 + (j 1).val) = _
    rw [Nat.zero_add (j 1).val, show (8192 : ℕ) = 2048 * (t.val % 5) by omega]

end Cert.KernelIdeal.Body

end
-- ==== Proof.ObligDefs.lean ====
/-
  The body obligation's two sides at a point, the windows one by one.
-/
import proofs.«135547_g86638080295370_cont_9to1_m_131_31_alg».proof.Proof.Support
import proofs.«135547_g86638080295370_cont_9to1_m_131_31_alg».proof.Proof.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the two clipped windows' buffers stated on the part their transfers move. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare (win0_4.fill (grid0.coords t) d (win0_4.cut (grid0.coords t) ((dats m 0 c).after 4 t)))))

/-- The same two sides with the proof data's contents written out, for a point after the first (the scratch
    holds the support) whose output buffer is found at `X4 d`. -/
theorem pre_eq (c : Dev nD) (t : Fin cfg0.N) :
    bodyPre m c t = iprop((dats m 0 c).Φ t.castSucc ∗ (dats m 0 c).owesAt () t.castSucc
      ∗ (∃ d, owns (c : Thread nD τ) (ms0 t) fullShare (win0_0.fill (grid0.coords t) d (iblk m c 0 t)))
      ∗ (∃ d : S10000x256.Idx → EReal, owns (c : Thread nD τ) (ms1 t) fullShare (xArr m c))
      ∗ (∃ d : S256x256.Idx → EReal, owns (c : Thread nD τ) (ms2 t) fullShare (wArr m c))
      ∗ (∃ d : S1x256.Idx → EReal, owns (c : Thread nD τ) (ms3 t) fullShare (bRow m c))
      ∗ (∃ d, owns (c : Thread nD τ) (ms4 t) fullShare ((dats m 0 c).before 4 t d))) := by
  unfold bodyPre
  simp only [before0, before1, before2, before3, iblk1_eq, iblk2_eq, iblk3_eq]
  rfl

theorem post_eq (c : Dev nD) (t : Fin cfg0.N) :
    bodyPost m c t = iprop((owns (c : Thread nD τ) msS fullShare (supS m c) ∗ ∃ r, prngReg c r) ∗ (dats m 0 c).owesAt () t.castSucc
      ∗ (∃ d, owns (c : Thread nD τ) (ms0 t) fullShare (win0_0.fill (grid0.coords t) d (iblk m c 0 t)))
      ∗ owns (c : Thread nD τ) (ms1 t) fullShare (xArr m c)
      ∗ owns (c : Thread nD τ) (ms2 t) fullShare (wArr m c)
      ∗ owns (c : Thread nD τ) (ms3 t) fullShare (bRow m c)
      ∗ (∃ d, owns (c : Thread nD τ) (ms4 t) fullShare (win0_4.fill (grid0.coords t) d (win0_4.cut (grid0.coords t) (acc m c t))))) := by
  unfold bodyPost
  rw [show (dats m 0 c).owesAt () t.succ = (dats m 0 c).owesAt () t.castSucc from rfl,
    Phi_pos m c t.succ (Nat.succ_ne_zero _), after0, after1, after2, after3, after4, iblk1_eq, iblk2_eq, iblk3_eq, win0_0.cut_fill]

end Cert.KernelIdeal.Body

end
-- ==== Proof.ObligA.lean ====
/-
  The body obligation at the first point: the scratch, found at anything, is filled with the support, and the
  output block is set.
-/
import proofs.«135547_g86638080295370_cont_9to1_m_131_31_alg».proof.Proof.ObligDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

set_option maxHeartbeats 1600000 in
theorem sound_A (c : Dev nD) (t : Fin cfg0.N) (hA : t.val = 0) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  rw [pre_eq, post_eq]
  unfold bodyAt0
  have h0 : t.val % 5 = 0 := by rw [hA]
  have hc1 := (hcond1 t).mpr hA
  have hc2 := (hcond2 t).mpr h0
  have hc3 : ¬k0_cond3 (grid0.coords t) = 1#1 := fun h => by have := (hcond3 t).mp h; omega
  have hc4 : ¬k0_cond4 (grid0.coords t) = 1#1 := fun h => by have := (hcond4 t).mp h; omega
  rw [show (dats m 0 c).Φ t.castSucc = Pipeline.ΦA spec0 c from by dsimp only [dats]; exact if_pos hA]
  unfold Pipeline.ΦA; rw [scopedRest0_eq]
  simp only [before4_reset m c t h0]
  iintro ⟨⟨⟨%fs, HS⟩, Hg⟩, Ho, ⟨%d0, H0⟩, ⟨%d1, H1⟩, ⟨%d2, H2⟩, ⟨%d3, H3⟩, ⟨%d4, H4⟩⟩
  iapply ((kernelRun_A c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 fs).2.2 Set.univ _)
  isplitl [H0]; · iexact H0
  isplitl [H1]; · iexact H1
  isplitl [H2]; · iexact H2
  isplitl [H3]; · iexact H3
  isplitl [H4]; · iexact H4
  isplitl [HS]
  · rw [owns_whole_eq]; iexists fs; isplitr; · ipureintro; rfl
    iexact HS
  iintro ⟨H0, H1, H2, H3, ⟨%e4, H4⟩, ⟨%es, HS⟩⟩
  isplitl [HS Hg]
  · isplitl [HS]
    · unfold owns; iexists _; isplitr; swap; · iexact HS
      ipureintro
      exact (View.read_writes_of_cover _ _ _ _ _ (coverS_A c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 fs)).trans
        (scr_A_value m c (grid0.coords t) (ms0 t) (hs0 t) (ms1 t) (hs1 t) (ms2 t) (hs2 t) (ms3 t) (hs3 t) (ms4 t) (hs4 t) msS hsS hc1 hc2 hc3 hc4 _ _ _ _)
    · iexact Hg
  isplitl [Ho]; · iexact Ho
  isplitl [H0]
  · iexists d0; iexact H0
  isplitl [H1]; · iexact H1
  isplitl [H2]; · iexact H2
  isplitl [H3]; · iexact H3
  · iexists (out_A c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 fs)
    rw [win0_4.fill_congr_cut _ (by rw [out_A_eq, scr_A_value]; exact value_first m c t h0 d0)]
    unfold owns; iexists _; isplitr; swap; · iexact H4
    ipureintro; exact View.read_writes_of_cover _ _ _ _ _ (cover_A c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 fs)

end Cert.KernelIdeal.Body

end
-- ==== Proof.ObligB.lean ====
/-
  The body obligation at k = 0 of a row block after the first: the output block is set.
-/
import proofs.«135547_g86638080295370_cont_9to1_m_131_31_alg».proof.Proof.ObligDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

set_option maxHeartbeats 1600000 in
theorem sound_B (c : Dev nD) (t : Fin cfg0.N) (h0 : t.val % 5 = 0) (hA : t.val ≠ 0) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  rw [pre_eq, post_eq]
  unfold bodyAt0
  have hc1 : ¬cond1 (grid0.coords t) := fun h => hA ((hcond1 t).mp h)
  have hc2 := (hcond2 t).mpr h0
  have hc3 : ¬k0_cond3 (grid0.coords t) = 1#1 := fun h => by have := (hcond3 t).mp h; omega
  have hc4 : ¬k0_cond4 (grid0.coords t) = 1#1 := fun h => by have := (hcond4 t).mp h; omega
  rw [Phi_pos m c t.castSucc hA]
  simp only [before4_reset m c t h0]
  iintro ⟨⟨HS, Hg⟩, Ho, ⟨%d0, H0⟩, ⟨%d1, H1⟩, ⟨%d2, H2⟩, ⟨%d3, H3⟩, ⟨%d4, H4⟩⟩
  iapply ((kernelRun_B c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 (supS m c)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]
  · iexists d0; iexact H0
  isplitl [H1]; · iexact H1
  isplitl [H2]; · iexact H2
  isplitl [H3]; · iexact H3
  · iexists (out_B c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 (supS m c))
    rw [win0_4.fill_congr_cut _ (by rw [out_B_eq]; exact value_first m c t h0 d0)]
    unfold owns; iexists _; isplitr; swap; · iexact H4
    ipureintro; exact View.read_writes_of_cover _ _ _ _ _ (cover_B c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) d4 (supS m c))

end Cert.KernelIdeal.Body

end
-- ==== Proof.ObligC.lean ====
/-
  The body obligation at 0 < k < 4: a stripe's product is added to the output block.
-/
import proofs.«135547_g86638080295370_cont_9to1_m_131_31_alg».proof.Proof.ObligDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

set_option maxHeartbeats 1600000 in
theorem sound_C (c : Dev nD) (t : Fin cfg0.N) (h3 : 0 < t.val % 5 ∧ t.val % 5 < 4) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  rw [pre_eq, post_eq]
  unfold bodyAt0
  have h0 : ¬t.val % 5 = 0 := by omega
  have hA : t.val ≠ 0 := fun h => h0 (by rw [h])
  have hc1 : ¬cond1 (grid0.coords t) := fun h => hA ((hcond1 t).mp h)
  have hc2 : ¬k0_cond2 (grid0.coords t) = 1#1 := fun h => h0 ((hcond2 t).mp h)
  have hc3 := (hcond3 t).mpr h3
  have hc4 : ¬k0_cond4 (grid0.coords t) = 1#1 := fun h => by have := (hcond4 t).mp h; omega
  rw [Phi_pos m c t.castSucc hA]
  simp only [before4_acc m c t h0]
  iintro ⟨⟨HS, Hg⟩, Ho, ⟨%d0, H0⟩, ⟨%d1, H1⟩, ⟨%d2, H2⟩, ⟨%d3, H3⟩, ⟨%d4, H4⟩⟩
  iapply ((kernelRun_C c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]
  · iexists d0; iexact H0
  isplitl [H1]; · iexact H1
  isplitl [H2]; · iexact H2
  isplitl [H3]; · iexact H3
  · have hval : win0_4.cut (grid0.coords t) (out_C c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c)) = win0_4.cut (grid0.coords t) (acc m c t) := by
      rw [out_C_eq]; exact value_mid m c t h3 hc3 d0 d4
    iexists (out_C c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c))
    rw [win0_4.fill_congr_cut (grid0.coords t) hval]
    unfold owns; iexists _; isplitr; swap; · iexact H4
    ipureintro; exact View.read_writes_of_cover _ _ _ _ _ (cover_C c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c))

end Cert.KernelIdeal.Body

end
-- ==== Proof.ObligD.lean ====
/-
  The body obligation at k = 4: the last stripe's product and the bias are added and the block clamped at zero.
-/
import proofs.«135547_g86638080295370_cont_9to1_m_131_31_alg».proof.Proof.ObligDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

set_option maxHeartbeats 1600000 in
theorem sound_D (c : Dev nD) (t : Fin cfg0.N) (h4 : t.val % 5 = 4) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  rw [pre_eq, post_eq]
  unfold bodyAt0
  have h0 : ¬t.val % 5 = 0 := by omega
  have hA : t.val ≠ 0 := fun h => h0 (by rw [h])
  have hc1 : ¬cond1 (grid0.coords t) := fun h => hA ((hcond1 t).mp h)
  have hc2 : ¬k0_cond2 (grid0.coords t) = 1#1 := fun h => h0 ((hcond2 t).mp h)
  have hc3 : ¬k0_cond3 (grid0.coords t) = 1#1 := fun h => by have := (hcond3 t).mp h; omega
  have hc4 := (hcond4 t).mpr h4
  rw [Phi_pos m c t.castSucc hA]
  simp only [before4_acc m c t h0]
  iintro ⟨⟨HS, Hg⟩, Ho, ⟨%d0, H0⟩, ⟨%d1, H1⟩, ⟨%d2, H2⟩, ⟨%d3, H3⟩, ⟨%d4, H4⟩⟩
  iapply ((kernelRun_D c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]
  · iexists d0; iexact H0
  isplitl [H1]; · iexact H1
  isplitl [H2]; · iexact H2
  isplitl [H3]; · iexact H3
  · have hval : win0_4.cut (grid0.coords t) (out_D c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c)) = win0_4.cut (grid0.coords t) (acc m c t) := by
      rw [out_D_eq]; exact value_last m c t h4 d0 d4
    iexists (out_D c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c))
    rw [win0_4.fill_congr_cut (grid0.coords t) hval]
    unfold owns; iexists _; isplitr; swap; · iexact H4
    ipureintro; exact View.read_writes_of_cover _ _ _ _ _ (cover_D c (grid0.coords t) (ms0 t) (hs0 t) (ms1 t) (hs1 t) (ms2 t) (hs2 t) (ms3 t) (hs3 t) (ms4 t) (hs4 t) msS hsS hc1 hc2 hc3 hc4 (win0_0.fill (grid0.coords t) d0 (iblk m c 0 t)) (xArr m c) (wArr m c) (bRow m c) (win0_4.fill (grid0.coords ⟨t.val - 1, Nat.lt_of_le_of_lt (Nat.sub_le _ _) t.isLt⟩) d4 (win0_4.cut (grid0.coords ⟨t.val - 1, Nat.lt_of_le_of_lt (Nat.sub_le _ _) t.isLt⟩) (acc m c ⟨t.val - 1, Nat.lt_of_le_of_lt (Nat.sub_le _ _) t.isLt⟩))) (supS m c))

end Cert.KernelIdeal.Body

end
-- ==== Proof.Oblig.lean ====
/-
  The body obligation of the idealized kernel's pipeline: at each of the 25 points the closed forms of the branch
  conditions say which of the four control cases the point is in, and that case's obligation applies.
-/
import proofs.«135547_g86638080295370_cont_9to1_m_131_31_alg».proof.Proof.ObligA
import proofs.«135547_g86638080295370_cont_9to1_m_131_31_alg».proof.Proof.ObligB
import proofs.«135547_g86638080295370_cont_9to1_m_131_31_alg».proof.Proof.ObligC
import proofs.«135547_g86638080295370_cont_9to1_m_131_31_alg».proof.Proof.ObligD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

theorem sound_body (c : Dev nD) (t : Fin cfg0.N) :
    bodyPre m c t ⊢ wp frame (wpE (defs₀ (F := Ideal)) Variants.none c none) Set.univ (bodyAt0 t) (fun _ => bodyPost m c t) := by
  by_cases h0 : t.val % 5 = 0
  · by_cases hA : t.val = 0
    · exact sound_A m c t hA
    · exact sound_B m c t h0 hA
  · by_cases h4 : t.val % 5 = 4
    · exact sound_D m c t h4
    · exact sound_C m c t (by omega)

/-- The library's body obligation, at every point (the output window is idle nowhere). -/
theorem body_obligation (c : Dev nD) : BodyObligationLoose (dats m 0 c) (defs₀ (F := Ideal)) Variants.none () Set.univ := fun t => by
  rw [bigSep_W0, bigSep_W0]
  rw [hidle4 t]
  exact sound_body m c t

end Cert.KernelIdeal.Body

end
-- ==== Proof.Final.lean ====
/-
  The result array after the run: the five write-backs (one per row block, at k = 4) write, block by block, the
  layer's result; the row blocks cover the 10000 rows (the last one cut at the array's end).
-/
import proofs.«135547_g86638080295370_cont_9to1_m_131_31_alg».proof.Proof.Data
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ)

/-- The bias as the argument vector. -/
def bVec (c : Dev nD) : Cert.Gcn.SB.Idx → EReal := V m c main_arg3

/-- The host reshaped the bias vector to one row before the region: the row's entry (0, q) is the vector's entry q. -/
theorem bRow_eq (c : Dev nD) (q : Fin 256) : bRow m c (ix2 (0 : Fin 1) q) = bVec m c (ix1 q) := by
  have e : (V m c main_call0_v0 : S1x256.Idx → EReal)
      = shapeCast S1x256 (V m c main_arg3 : S256.Idx → EReal) shapeCasts_S256_S1x256 := by
    dsimp only [Gen.V, Gen.hostOps0]; after_results; rfl
  unfold bRow bVec
  rw [e]
  exact shapeCast_apply _ _ _ (ix1 q) (by
    rw [Shape.rowMajor_val_two, Shape.rowMajor_val_one]
    show q.val = 0 * 256 + q.val
    omega)

/-- The layer's result as contents of the result array. -/
def G (c : Dev nD) : Buf (Elt Ideal) ((c : Thread nD τ).loc main_v0) :=
  Cert.Gcn.out (xArr m c) (adjArr m c) (wArr m c) (bVec m c)

/-- The layer's result at an index whose coordinates are (r, q), with the bias read off the reshaped row. -/
theorem G_apply (c : Dev nD) (i : Cert.Gcn.SX.Idx) (r : ℕ) (q : Fin 256) (h0 : (i 0).val = r) (h1 : (i 1).val = q.val) :
    G m c i = max (Cert.Gcn.agg (xArr m c) (adjArr m c) (wArr m c) 10000 r q.val + bRow m c (ix2 (0 : Fin 1) q)) 0 := by
  rw [bRow_eq]
  have hq : i 1 = q := Fin.ext h1
  show max (Cert.Gcn.agg (xArr m c) (adjArr m c) (wArr m c) 10000 (i 0).val (i 1).val + bVec m c (ix1 (i 1))) 0 = _
  rw [h0, hq]

/-- The result's block index at point t = 5 m + k is (m, 0). -/
theorem out_index : ∀ t : Fin cfg0.N, win0_4.index t (0 : Fin 2) = t.val / 5 ∧ win0_4.index t (1 : Fin 2) = 0 :=
  (by decide +kernel : ∀ t : Fin grid0.N, _)

/-- A write-back moves 2048 rows, the last row block's 1808 (the rows inside the array), and all 256 columns. -/
theorem out_xsize : ∀ t : Fin cfg0.N, (t.val / 5 = 4 → win0_4.xsize (grid0.coords t) (0 : Fin 2) = 1808)
    ∧ (t.val / 5 ≠ 4 → win0_4.xsize (grid0.coords t) (0 : Fin 2) = 2048)
    ∧ win0_4.xsize (grid0.coords t) (1 : Fin 2) = 256 :=
  (by decide +kernel : ∀ t : Fin grid0.N, _)

/-- What the point t = 5 m + 4 writes back is its row block of the layer's result. -/
theorem flushed_eq (c : Dev nD) (t : Fin cfg0.N) (ht : t.val % 5 = 4) :
    (dats m 0 c).flushed 4 t = ((cfg0.win 4).blk t).view.read (Elt Ideal) (G m c) := by
  show (cfg0.win 4).cut (grid0.coords t) ((dats m 0 c).after 4 t) = _
  rw [after4]
  obtain ⟨e0, e1⟩ := out_index t
  funext j
  show acc m c t ((cfg0.win 4).xinj (grid0.coords t) j) = G m c (((cfg0.win 4).blk t).view.emb j)
  have h0 : ((((cfg0.win 4).blk t).view.emb j) 0).val = 2048 * (t.val / 5) + (j 0).val := by
    show win0_4.index t (0 : Fin 2) * 2048 + 1 * (j 0).val = _
    omega
  have h1 : ((((cfg0.win 4).blk t).view.emb j) 1).val = (j 1).val := by
    show win0_4.index t (1 : Fin 2) * 256 + 1 * (j 1).val = _
    omega
  rw [G_apply m c (((cfg0.win 4).blk t).view.emb j) (2048 * (t.val / 5) + (j 0).val)
    (((cfg0.win 4).xinj (grid0.coords t) j) 1) h0 h1]
  unfold acc
  exact if_pos ht

/-- An index of the result array is in point t's block iff each coordinate is in the block's range inside the array. -/
theorem mem_blk (t : Fin cfg0.N) (i : S10000x256.Idx) :
    i ∈ ((cfg0.win 4).blk t).view.set ↔ ∀ a : Fin 2, win0_4.index t a * S2048x256.size a ≤ (i a).val
      ∧ (i a).val < win0_4.index t a * S2048x256.size a + win0_4.xsize (grid0.coords t) a := by
  show i ∈ ((View.whole main_v0).slice (win0_4.rect t)).set ↔ _
  rw [View.set_slice_whole, Rect.mem_set_unit]
  exact Iff.rfl

/-- Row r lies in the row block r / 2048, written back at the point 5 (r / 2048) + 4: the five row blocks, the last cut
    at row 10000, cover the array. -/
theorem cover (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  obtain ⟨t', ht'⟩ : ∃ t' : Fin cfg0.N, t'.val = 5 * ((i 0).val / 2048) + 4 :=
    ⟨⟨5 * ((i 0).val / 2048) + 4, by rw [show cfg0.N = 25 from N_0]; omega⟩, rfl⟩
  refine ⟨t', (flush0_4 t').mpr (by omega), ?_⟩
  rw [mem_blk]
  obtain ⟨e0, e1⟩ := out_index t'
  obtain ⟨x0, x0', x1⟩ := out_xsize t'
  intro a
  match a with
  | ⟨0, _⟩ =>
    show win0_4.index t' (0 : Fin 2) * 2048 ≤ (i 0).val
      ∧ (i 0).val < win0_4.index t' (0 : Fin 2) * 2048 + win0_4.xsize (grid0.coords t') (0 : Fin 2)
    rw [e0]
    by_cases h4 : t'.val / 5 = 4
    · rw [x0 h4]; omega
    · rw [x0' h4]; omega
  | ⟨1, _⟩ =>
    show win0_4.index t' (1 : Fin 2) * 256 ≤ (i 1).val
      ∧ (i 1).val < win0_4.index t' (1 : Fin 2) * 256 + win0_4.xsize (grid0.coords t') (1 : Fin 2)
    rw [e1, x1]; omega

/-- After the run the result array holds the layer's result. -/
theorem final4 (c : Dev nD) : (dats m 0 c).arrAt 4 cfg0.N = G m c :=
  (dats m 0 c).arrAt_eq_of_cover 4 (G m c) (fun t hf => flushed_eq m c t ((flush0_4 t).mp hf)) cover

end Cert.KernelIdeal.Body

end
-- ==== Proof.KernelValue.lean ====
/-
  The idealized kernel's run with its result named: every weakly fair execution terminates with the result array
  holding the layer's result relu(adj @ (x @ W) + b) of the argument arrays, and the argument arrays unchanged.
-/
import proofs.«135547_g86638080295370_cont_9to1_m_131_31_alg».proof.Proof.Oblig
import proofs.«135547_g86638080295370_cont_9to1_m_131_31_alg».proof.Proof.Final

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run of the pipeline with the scratch tracked: before the first point the scratch holds anything, after
    the last it is forgotten again. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => by rw [Phi_zero])
    (hout := fun c => by
      rw [Phi_pos m c (Fin.last cfg0.N) (by decide)]
      unfold Pipeline.ΦA; rw [scopedRest0_eq, owns_whole_eq]
      iintro ⟨⟨%f, -, H⟩, Hg⟩
      isplitl [H]
      · iexists f; iexact H
      · iexact Hg)

/-- The layer's result of the region-entry arrays is the layer's result of the launch contents: no host
    operation before the region writes an argument. -/
theorem G_eq (c : Dev nD) :
    G m c = Cert.Gcn.out (m ((c.tc : Thread nD τ).loc main_arg0)) (m ((c.tc : Thread nD τ).loc main_arg1))
      (m ((c.tc : Thread nD τ).loc main_arg2)) (m ((c.tc : Thread nD τ).loc main_arg3)) := by
  unfold G xArr adjArr wArr bVec
  rw [V_main_arg0, V_main_arg1, V_main_arg2, V_main_arg3]

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
          = Cert.Gcn.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans ((final4 m c).trans (G_eq m c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Body

end
-- ==== Proof.RefValue.lean ====
/-
  The reference program's result is the specified layer.

  Read one element at a time the reference computes, at an index i with coordinates (r, c),
      max (max ((sum_{j : Fin 10000} adj[r, j] * (sum_{l : Fin 256} x[j, l] * W[l, c])) + b[c]) 0) 0,
  where the two zeros are the f32 zero word, the extended real 0. The two maxima against 0 are one,
  a sum over Fin n is the sum over range n of the same terms read at natural-number coordinates, and
  the index functions of the two products and the two broadcasts pick the coordinates named above.
-/
import proofs.«135547_g86638080295370_cont_9to1_m_131_31_alg».proof.Proof.Gen.ReferenceIdeal.Read
import proofs.«135547_g86638080295370_cont_9to1_m_131_31_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the first product, read at (row of i, k). -/
theorem read_l0 (x : (⟨S10000x256, .f32⟩ : BufTy).Contents (Elt Ideal)) (i : S10000x256.Idx) (k : Fin 256) :
    x (lidx_main_v0 i k) = Cert.Gcn.at2 x (i 0).val k.val := by
  rw [Cert.Gcn.at2_of_lt x (idx2_lt0 i) k.isLt]
  exact congrArg x (funext fun a => match a with | ⟨0, _⟩ => rfl | ⟨1, _⟩ => rfl)

/-- The right operand of the first product, read at (k, column of i). -/
theorem read_r0 (W : (⟨S256x256, .f32⟩ : BufTy).Contents (Elt Ideal)) (i : S10000x256.Idx) (k : Fin 256) :
    W (ridx_main_v0 i k) = Cert.Gcn.at2 W k.val (i 1).val := by
  rw [Cert.Gcn.at2_of_lt W k.isLt (idx2_lt1 i)]
  exact congrArg W (funext fun a => match a with | ⟨0, _⟩ => rfl | ⟨1, _⟩ => rfl)

/-- The left operand of the second product, read at (row of i, k). -/
theorem read_l1 (adj : (⟨S10000x10000, .f32⟩ : BufTy).Contents (Elt Ideal)) (i : S10000x256.Idx) (k : Fin 10000) :
    adj (lidx_main_v1 i k) = Cert.Gcn.at2 adj (i 0).val k.val := by
  rw [Cert.Gcn.at2_of_lt adj (idx2_lt0 i) k.isLt]
  exact congrArg adj (funext fun a => match a with | ⟨0, _⟩ => rfl | ⟨1, _⟩ => rfl)

/-- The bias, broadcast along the rows, is read at the column of i. -/
theorem read_bias (b : (⟨S256, .f32⟩ : BufTy).Contents (Elt Ideal)) (i : S10000x256.Idx) :
    b (idx_main_v2 (idx_main_v3 i)) = b (ix1 (i 1)) :=
  congrArg b (funext fun a => match a with | ⟨0, _⟩ => rfl)

/-- The first product is the support: entry (j, c) is sum_{l < 256} x[j, l] * W[l, c]. -/
theorem v0_eq (x : (⟨S10000x256, .f32⟩ : BufTy).Contents (Elt Ideal))
    (W : (⟨S256x256, .f32⟩ : BufTy).Contents (Elt Ideal)) (j : S10000x256.Idx) :
    val_main_v0 (F := Ideal) x W j = Cert.Gcn.sup x W (j 0).val (j 1).val := by
  rw [val_main_v0_apply]
  unfold Cert.Gcn.sup
  rw [← Fin.sum_univ_eq_sum_range (fun l => Cert.Gcn.at2 x (j 0).val l * Cert.Gcn.at2 W l (j 1).val) 256]
  refine Finset.sum_congr rfl fun k _ => ?_
  rw [read_l0 x j k, read_r0 W j k]

/-- The second product is the aggregation over all 10000 columns of the adjacency. -/
theorem v1_eq (x : (⟨S10000x256, .f32⟩ : BufTy).Contents (Elt Ideal))
    (adj : (⟨S10000x10000, .f32⟩ : BufTy).Contents (Elt Ideal))
    (W : (⟨S256x256, .f32⟩ : BufTy).Contents (Elt Ideal)) (i : S10000x256.Idx) :
    val_main_v1 (F := Ideal) x adj W i = Cert.Gcn.agg x adj W 10000 (i 0).val (i 1).val := by
  rw [val_main_v1_apply]
  unfold Cert.Gcn.agg
  rw [← Fin.sum_univ_eq_sum_range (fun j => Cert.Gcn.at2 adj (i 0).val j * Cert.Gcn.sup x W j (i 1).val) 10000]
  refine Finset.sum_congr rfl fun k _ => ?_
  have h0 : val_main_v0 (F := Ideal) x W (ridx_main_v1 i k) = Cert.Gcn.sup x W k.val (i 1).val :=
    v0_eq x W (ridx_main_v1 i k)
  rw [read_l1 adj i k, h0]

/-- The reference program's result is the specified layer. -/
theorem ref_eq (x : (⟨S10000x256, .f32⟩ : BufTy).Contents (Elt Ideal))
    (adj : (⟨S10000x10000, .f32⟩ : BufTy).Contents (Elt Ideal))
    (W : (⟨S256x256, .f32⟩ : BufTy).Contents (Elt Ideal))
    (b : (⟨S256, .f32⟩ : BufTy).Contents (Elt Ideal)) :
    val_main_v6 (F := Ideal) x adj W b = Cert.Gcn.out x adj W b := by
  funext i
  rw [val_main_v6_apply, val_main_v5_apply, val_main_v4_apply, val_main_call1_v0_apply,
    val_main_call0_v0_apply, val_main_call1_cst_apply, val_main_call0_cst_apply, val_main_v3_apply,
    val_main_v2_apply, v1_eq, read_bias b i]
  rw [Ideal.ofBits_def, Ideal.ofBits_zero_f32, Ideal.maximumf_def, Ideal.maximumf_def, Ideal.addf_def,
    max_assoc, max_self]
  rfl

end Cert.ReferenceIdeal.RefValue

end
-- ==== Proof.Claims.lean ====
/-
  The five claims of the certificate, one theorem each.

  The program is one dense graph-convolution layer, out = max (adj @ (x @ W) + b) 0, computed on a 5 x 5 grid of
  (row block, column stripe) points with the support x @ W kept in a scratch buffer, against the plain
  two-product reference. At the extended reals both compute Cert.Gcn.out of the same four arrays: the
  kernel's stripes of columns join into the one sum over all columns by associativity and commutativity of +,
  and the reference's two maxima against zero are one.
-/
import proofs.«135547_g86638080295370_cont_9to1_m_131_31_alg».proof.Defs
import proofs.«135547_g86638080295370_cont_9to1_m_131_31_alg».proof.Proof.KFrame
import proofs.«135547_g86638080295370_cont_9to1_m_131_31_alg».proof.Proof.KernelValue
import proofs.«135547_g86638080295370_cont_9to1_m_131_31_alg».proof.Proof.RefValue
import proofs.«135547_g86638080295370_cont_9to1_m_131_31_alg».proof.Proof.Gen.Kernel
import proofs.«135547_g86638080295370_cont_9to1_m_131_31_alg».proof.Proof.Gen.KernelIdeal
import proofs.«135547_g86638080295370_cont_9to1_m_131_31_alg».proof.Proof.Gen.ReferenceIdeal
import proofs.«135547_g86638080295370_cont_9to1_m_131_31_alg».proof.Proof.Gen.ReferenceIdeal.Run
import proofs.«135547_g86638080295370_cont_9to1_m_131_31_alg».proof.Proof.Gen.ReferenceIdeal.Read
import proofs.«135547_g86638080295370_cont_9to1_m_131_31_alg».proof.Proof.Gen.Pre_finite_inputs

noncomputable section

namespace Cert.Proof.Claims

open Idealize.ShloMosaic Idealize.SL.Sem

/-- The layer is a function of its four arrays: equal arrays give equal results. Stated over plainly typed
    arrays, so that a fact relating the two programs' memories enters only as four separate equations. -/
theorem out_congr {x x' : Cert.Gcn.SX.Idx → EReal} {adj adj' : Cert.Gcn.SA.Idx → EReal}
    {W W' : Cert.Gcn.SW.Idx → EReal} {b b' : Cert.Gcn.SB.Idx → EReal}
    (hx : x' = x) (ha : adj' = adj) (hW : W' = W) (hb : b' = b) :
    Cert.Gcn.out x' adj' W' b' = Cert.Gcn.out x adj W b := by
  subst hx ha hW hb; rfl

/-- The reference's result term, as its run states it, is the layer of its four argument arrays. -/
theorem ref_out (x : (⟨Cert.ReferenceIdeal.S10000x256, .f32⟩ : BufTy).Contents (Elt Ideal))
    (adj : (⟨Cert.ReferenceIdeal.S10000x10000, .f32⟩ : BufTy).Contents (Elt Ideal))
    (W : (⟨Cert.ReferenceIdeal.S256x256, .f32⟩ : BufTy).Contents (Elt Ideal))
    (b : (⟨Cert.ReferenceIdeal.S256, .f32⟩ : BufTy).Contents (Elt Ideal)) :
    Cert.ReferenceIdeal.Read.val_main_v6 (F := Ideal) x adj W b = Cert.Gcn.out x adj W b :=
  Cert.ReferenceIdeal.RefValue.ref_eq x adj W b

/-- The word-level kernel runs and leaves its argument arrays unchanged. -/
theorem frame_k : Cert.frame_Kernel := fun m ρ _ => Cert.Kernel.Body.frame (F := Bits) m ρ

/-- The idealized kernel runs and leaves its argument arrays unchanged: its value run with the result dropped. -/
theorem frame_ki : Cert.frame_KernelIdeal := fun m ρ _ =>
  (θ_run Cert.KernelIdeal.defs _ _).mono (fun _ h c => (h c).2) (Cert.KernelIdeal.Body.value_run m ρ)

/-- The reference runs and leaves its argument arrays unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the layer of the kernel's four argument arrays: the kernel
    by its value run; the reference by its run, whose result term is the layer of ITS argument arrays, which
    agree with the kernel's. -/
theorem algebraic : Cert.algebraic_KernelIdeal_ReferenceIdeal := fun m ρ m' ρ' _ hagree =>
  ⟨_, Cert.KernelIdeal.Body.value_run m ρ,
    (θ_run Cert.ReferenceIdeal.defs _ _).mono
      (fun _ h c => ⟨(h c).1.trans ((ref_out _ _ _ _).trans
          (out_congr (hagree c).1 (hagree c).2.1 (hagree c).2.2.1 (hagree c).2.2.2)), (h c).2⟩)
      (Cert.ReferenceIdeal.Value.run (F := Ideal) m' ρ')⟩

end Cert.Proof.Claims

end
-- ==== Proof.lean ====
/-
  One dense graph-convolution layer, out = max (adj @ (x @ W) + b) 0, for x : [10000, 256], adj : [10000, 10000],
  W : [256, 256], b : [256]. The kernel tiles the aggregation on a 5 x 5 grid of (row block, column stripe) points,
  computing the support x @ W once into a scratch buffer and adding one stripe's product per point; the reference is
  the two plain products, the bias and the maximum. At the extended reals the two are equal entry by entry: the
  stripes' sums join into the sum over all 10000 columns by associativity and commutativity of +, and the
  reference's two maxima against zero are one. Each program runs and leaves its argument arrays unchanged.
-/
import proofs.«135547_g86638080295370_cont_9to1_m_131_31_alg».proof.Defs
import proofs.«135547_g86638080295370_cont_9to1_m_131_31_alg».proof.Proof.Gen.Kernel
import proofs.«135547_g86638080295370_cont_9to1_m_131_31_alg».proof.Proof.Gen.Kernel.Skeleton
import proofs.«135547_g86638080295370_cont_9to1_m_131_31_alg».proof.Proof.Gen.Kernel.Launch
import proofs.«135547_g86638080295370_cont_9to1_m_131_31_alg».proof.Proof.Gen.Kernel.Points
import proofs.«135547_g86638080295370_cont_9to1_m_131_31_alg».proof.Proof.Gen.Kernel.Frame
import proofs.«135547_g86638080295370_cont_9to1_m_131_31_alg».proof.Proof.Gen.KernelIdeal
import proofs.«135547_g86638080295370_cont_9to1_m_131_31_alg».proof.Proof.Gen.KernelIdeal.Skeleton
import proofs.«135547_g86638080295370_cont_9to1_m_131_31_alg».proof.Proof.Gen.KernelIdeal.Launch
import proofs.«135547_g86638080295370_cont_9to1_m_131_31_alg».proof.Proof.Gen.KernelIdeal.Points
import proofs.«135547_g86638080295370_cont_9to1_m_131_31_alg».proof.Proof.Gen.KernelIdeal.Frame
import proofs.«135547_g86638080295370_cont_9to1_m_131_31_alg».proof.Proof.Gen.ReferenceIdeal
import proofs.«135547_g86638080295370_cont_9to1_m_131_31_alg».proof.Proof.Gen.ReferenceIdeal.Run
import proofs.«135547_g86638080295370_cont_9to1_m_131_31_alg».proof.Proof.Gen.ReferenceIdeal.Read
import proofs.«135547_g86638080295370_cont_9to1_m_131_31_alg».proof.Proof.Gen.Pre_finite_inputs
import proofs.«135547_g86638080295370_cont_9to1_m_131_31_alg».proof.Proof.Claims
import Idealize.ShloMosaic.Adequacy
import Idealize.ShloMosaic.Init

noncomputable section

namespace Cert.Proof

open Idealize.ShloMosaic Idealize.SL.Sem Cert.Kernel

/-- The certificate's claim: the four programs' stated facts, then the five claims. -/
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
